-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S160000 : Shape := ⟨1, ![160000]⟩
abbrev S131072x2 : Shape := ⟨2, ![131072, 2]⟩
abbrev S512x800 : Shape := ⟨2, ![512, 800]⟩
abbrev S800x200 : Shape := ⟨2, ![800, 200]⟩
abbrev S400x64 : Shape := ⟨2, ![400, 64]⟩
abbrev S64 : Shape := ⟨1, ![64]⟩
abbrev S64x1 : Shape := ⟨2, ![64, 1]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S160000 : S_.BroadcastsInDim S160000 (![] : Fin 0 → Fin S160000.rank)
  reducesTo_S160000_S_d0 : S160000.ReducesTo [0] S_
  bcast_S_S512x800 : S_.BroadcastsInDim S512x800 (![] : Fin 0 → Fin S512x800.rank)
  reducesTo_S512x800_S_d0_1 : S512x800.ReducesTo [0, 1] S_
  bcast_S_S800x200 : S_.BroadcastsInDim S800x200 (![] : Fin 0 → Fin S800x200.rank)
  reducesTo_S800x200_S_d0_1 : S800x200.ReducesTo [0, 1] S_
  bcast_S_S400x64 : S_.BroadcastsInDim S400x64 (![] : Fin 0 → Fin S400x64.rank)
  reducesTo_S400x64_S_d0_1 : S400x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_arg10 : FVec F S400x64 .f32) (main_arg11 : FVec F S64 .f32) (main_arg12 : FVec F S64x1 .f32) (main_v33 : IVec S_ 1) : IVec S_ 1 :=
  let main_v34 : FVec F S400x64 .f32 := Host.absf main_arg10
  let main_cst_12 : FVec F S_ .f32 := constant S_ .f32 0x7F800000#32
  let main_v35 : FVec F S400x64 .f32 := broadcastInDim S400x64 ![] bcast_S_S400x64 main_cst_12
  let main_v36 : IVec S400x64 1 := cmpf .olt main_v34 main_v35
  let main_c_13 : IVec S_ 1 := constantI S_ 1 1#1
  let main_v37 : IVec S_ 1 := (fun x v => Host.reduce IntOp.andi x v reducesTo_S400x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg12
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  main_v48

def fn_part1 {F : FTy → Type} [FloatOps F] (main_arg7 : FVec F S800x200 .f32) (main_arg8 : FVec F S512x800 .f32) (main_arg9 : FVec F S800x200 .f32) (main_arg10 : FVec F S400x64 .f32) (main_arg11 : FVec F S64 .f32) (main_arg12 : FVec F S64x1 .f32) (main_v13 : IVec S_ 1) (main_v16 : IVec S512x800 1) : IVec S_ 1 :=
  let main_c_5 : IVec S_ 1 := constantI S_ 1 1#1
  let main_v17 : IVec S_ 1 := (fun x v => Host.reduce IntOp.andi x v reducesTo_S512x800_S_d0_1 h_S_) main_v16 main_c_5
  let main_v18 : IVec S_ 1 := andi main_v13 main_v17
  let main_v19 : FVec F S800x200 .f32 := Host.absf main_arg7
  let main_cst_6 : FVec F S_ .f32 := constant S_ .f32 0x7F800000#32
  let main_v20 : FVec F S800x200 .f32 := broadcastInDim S800x200 ![] bcast_S_S800x200 main_cst_6
  let main_v21 : IVec S800x200 1 := cmpf .olt main_v19 main_v20
  let main_c_7 : IVec S_ 1 := constantI S_ 1 1#1
  let main_v22 : IVec S_ 1 := (fun x v => Host.reduce IntOp.andi x v reducesTo_S800x200_S_d0_1 h_S_) main_v21 main_c_7
  let main_v23 : IVec S_ 1 := andi main_v18 main_v22
  let main_v24 : FVec F S512x800 .f32 := Host.absf main_arg8
  let main_cst_8 : FVec F S_ .f32 := constant S_ .f32 0x7F800000#32
  let main_v25 : FVec F S512x800 .f32 := broadcastInDim S512x800 ![] bcast_S_S512x800 main_cst_8
  let main_v26 : IVec S512x800 1 := cmpf .olt main_v24 main_v25
  let main_c_9 : IVec S_ 1 := constantI S_ 1 1#1
  let main_v27 : IVec S_ 1 := (fun x v => Host.reduce IntOp.andi x v reducesTo_S512x800_S_d0_1 h_S_) main_v26 main_c_9
  let main_v28 : IVec S_ 1 := andi main_v23 main_v27
  let main_v29 : FVec F S800x200 .f32 := Host.absf main_arg9
  let main_cst_10 : FVec F S_ .f32 := constant S_ .f32 0x7F800000#32
  let main_v30 : FVec F S800x200 .f32 := broadcastInDim S800x200 ![] bcast_S_S800x200 main_cst_10
  let main_v31 : IVec S800x200 1 := cmpf .olt main_v29 main_v30
  let main_c_11 : IVec S_ 1 := constantI S_ 1 1#1
  let main_v32 : IVec S_ 1 := (fun x v => Host.reduce IntOp.andi x v reducesTo_S800x200_S_d0_1 h_S_) main_v31 main_c_11
  let main_v33 : IVec S_ 1 := andi main_v28 main_v32
  fn_part2 (F := F) main_arg10 main_arg11 main_arg12 main_v33

def fn {F : FTy → Type} [FloatOps F] (main_arg0 : FVec F S20000x512 .f32) (main_arg1 : FVec F S20000x512 .f32) (main_arg2 : IVec S160000 32) (main_arg3 : IVec S160000 32) (main_arg4 : FVec F S160000 .f32) (main_arg5 : IVec S131072x2 32) (main_arg6 : FVec F S512x800 .f32) (main_arg7 : FVec F S800x200 .f32) (main_arg8 : FVec F S512x800 .f32) (main_arg9 : FVec F S800x200 .f32) (main_arg10 : FVec F S400x64 .f32) (main_arg11 : FVec F S64 .f32) (main_arg12 : FVec F S64x1 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S20000x512 .f32 := Host.absf main_arg1
  let main_cst_0 : FVec F S_ .f32 := constant S_ .f32 0x7F800000#32
  let main_v5 : FVec F S20000x512 .f32 := broadcastInDim S20000x512 ![] bcast_S_S20000x512 main_cst_0
  let main_v6 : IVec S20000x512 1 := cmpf .olt main_v4 main_v5
  let main_c_1 : IVec S_ 1 := constantI S_ 1 1#1
  let main_v7 : IVec S_ 1 := (fun x v => Host.reduce IntOp.andi x v reducesTo_S20000x512_S_d0_1 h_S_) main_v6 main_c_1
  let main_v8 : IVec S_ 1 := andi main_v3 main_v7
  let main_v9 : FVec F S160000 .f32 := Host.absf main_arg4
  let main_cst_2 : FVec F S_ .f32 := constant S_ .f32 0x7F800000#32
  let main_v10 : FVec F S160000 .f32 := broadcastInDim S160000 ![] bcast_S_S160000 main_cst_2
  let main_v11 : IVec S160000 1 := cmpf .olt main_v9 main_v10
  let main_c_3 : IVec S_ 1 := constantI S_ 1 1#1
  let main_v12 : IVec S_ 1 := (fun x v => Host.reduce IntOp.andi x v reducesTo_S160000_S_d0 h_S_) main_v11 main_c_3
  let main_v13 : IVec S_ 1 := andi main_v8 main_v12
  let main_v14 : FVec F S512x800 .f32 := Host.absf main_arg6
  let main_cst_4 : FVec F S_ .f32 := constant S_ .f32 0x7F800000#32
  let main_v15 : FVec F S512x800 .f32 := broadcastInDim S512x800 ![] bcast_S_S512x800 main_cst_4
  let main_v16 : IVec S512x800 1 := cmpf .olt main_v14 main_v15
  fn_part1 (F := F) main_arg7 main_arg8 main_arg9 main_arg10 main_arg11 main_arg12 main_v13 main_v16
-- ==== Kernel.lean ====
abbrev S20000x512 : Shape := ⟨2, ![20000, 512]⟩
abbrev S160000 : Shape := ⟨1, ![160000]⟩
abbrev S131072x2 : Shape := ⟨2, ![131072, 2]⟩
abbrev S512x800 : Shape := ⟨2, ![512, 800]⟩
abbrev S800x200 : Shape := ⟨2, ![800, 200]⟩
abbrev S400x64 : Shape := ⟨2, ![400, 64]⟩
abbrev S64 : Shape := ⟨1, ![64]⟩
abbrev S64x1 : Shape := ⟨2, ![64, 1]⟩
abbrev S20000x800 : Shape := ⟨2, ![20000, 800]⟩
abbrev S2000x512 : Shape := ⟨2, ![2000, 512]⟩
abbrev S2000x800 : Shape := ⟨2, ![2000, 800]⟩
abbrev S160000x1 : Shape := ⟨2, ![160000, 1]⟩
abbrev S_ : Shape := ⟨0, ![]⟩
abbrev S160000x800 : Shape := ⟨2, ![160000, 800]⟩
abbrev S20000x200 : Shape := ⟨2, ![20000, 200]⟩
abbrev S2000x200 : Shape := ⟨2, ![2000, 200]⟩
abbrev S160000x200 : Shape := ⟨2, ![160000, 200]⟩
abbrev S131072x1 : Shape := ⟨2, ![131072, 1]⟩
abbrev S131072 : Shape := ⟨1, ![131072]⟩
abbrev S131072x200 : Shape := ⟨2, ![131072, 200]⟩
abbrev S131072x400 : Shape := ⟨2, ![131072, 400]⟩
abbrev S1x64 : Shape := ⟨2, ![1, 64]⟩
abbrev S4096x400 : Shape := ⟨2, ![4096, 400]⟩
abbrev S4096x1 : Shape := ⟨2, ![4096, 1]⟩
abbrev S4096x64 : Shape := ⟨2, ![4096, 64]⟩

abbrev nBuf : Space → Nat
  | .hbm => 125
  | .vmem => 27
  | .smem => 0
  | _ => 0

abbrev bufTy : (tb : Table) → Fin (tcTables nBuf tb) → BufTy
  | .hbm, ⟨0, _⟩ => ⟨S20000x512, .f32⟩
  | .hbm, ⟨1, _⟩ => ⟨S20000x512, .f32⟩
  | .hbm, ⟨2, _⟩ => ⟨S160000, .i32⟩
  | .hbm, ⟨3, _⟩ => ⟨S160000, .i32⟩
  | .hbm, ⟨4, _⟩ => ⟨S160000, .f32⟩
  | .hbm, ⟨5, _⟩ => ⟨S131072x2, .i32⟩
  | .hbm, ⟨6, _⟩ => ⟨S512x800, .f32⟩
  | .hbm, ⟨7, _⟩ => ⟨S800x200, .f32⟩
  | .hbm, ⟨8, _⟩ => ⟨S512x800, .f32⟩
  | .hbm, ⟨9, _⟩ => ⟨S800x200, .f32⟩
  | .hbm, ⟨10, _⟩ => ⟨S400x64, .f32⟩
  | .hbm, ⟨11, _⟩ => ⟨S64, .f32⟩
  | .hbm, ⟨12, _⟩ => ⟨S64x1, .f32⟩
  | .hbm, ⟨13, _⟩ => ⟨S20000x800, .f32⟩
  | .hbm, ⟨14, _⟩ => ⟨S160000x1, .f32⟩
  | .hbm, ⟨15, _⟩ => ⟨S_, .i32⟩
  | .hbm, ⟨16, _⟩ => ⟨S160000, .i32⟩
  | .hbm, ⟨17, _⟩ => ⟨S160000, .i1⟩
  | .hbm, ⟨18, _⟩ => ⟨S_, .i32⟩
  | .hbm, ⟨19, _⟩ => ⟨S160000, .i32⟩
  | .hbm, ⟨20, _⟩ => ⟨S160000, .i32⟩
  | .hbm, ⟨21, _⟩ => ⟨S160000, .i32⟩
  | .hbm, ⟨22, _⟩ => ⟨S160000x1, .i32⟩
  | .hbm, ⟨23, _⟩ => ⟨S160000x800, .f32⟩
  | .hbm, ⟨24, _⟩ => ⟨S160000x800, .f32⟩
  | .hbm, ⟨25, _⟩ => ⟨S160000x800, .f32⟩
  | .hbm, ⟨26, _⟩ => ⟨S_, .f32⟩
  | .hbm, ⟨27, _⟩ => ⟨S20000x800, .f32⟩
  | .hbm, ⟨28, _⟩ => ⟨S160000x1, .i32⟩
  | .hbm, ⟨29, _⟩ => ⟨S20000x800, .f32⟩
  | .hbm, ⟨30, _⟩ => ⟨S_, .f32⟩
  | .hbm, ⟨31, _⟩ => ⟨S20000x800, .f32⟩
  | .hbm, ⟨32, _⟩ => ⟨S20000x800, .f32⟩
  | .hbm, ⟨33, _⟩ => ⟨S20000x200, .f32⟩
  | .hbm, ⟨34, _⟩ => ⟨S160000x1, .f32⟩
  | .hbm, ⟨35, _⟩ => ⟨S_, .i32⟩
  | .hbm, ⟨36, _⟩ => ⟨S160000, .i32⟩
  | .hbm, ⟨37, _⟩ => ⟨S160000, .i1⟩
  | .hbm, ⟨38, _⟩ => ⟨S_, .i32⟩
  | .hbm, ⟨39, _⟩ => ⟨S160000, .i32⟩
  | .hbm, ⟨40, _⟩ => ⟨S160000, .i32⟩
  | .hbm, ⟨41, _⟩ => ⟨S160000, .i32⟩
  | .hbm, ⟨42, _⟩ => ⟨S160000x1, .i32⟩
  | .hbm, ⟨43, _⟩ => ⟨S160000x200, .f32⟩
  | .hbm, ⟨44, _⟩ => ⟨S160000x200, .f32⟩
  | .hbm, ⟨45, _⟩ => ⟨S160000x200, .f32⟩
  | .hbm, ⟨46, _⟩ => ⟨S_, .f32⟩
  | .hbm, ⟨47, _⟩ => ⟨S20000x200, .f32⟩
  | .hbm, ⟨48, _⟩ => ⟨S160000x1, .i32⟩
  | .hbm, ⟨49, _⟩ => ⟨S20000x200, .f32⟩
  | .hbm, ⟨50, _⟩ => ⟨S_, .f32⟩
  | .hbm, ⟨51, _⟩ => ⟨S20000x200, .f32⟩
  | .hbm, ⟨52, _⟩ => ⟨S20000x200, .f32⟩
  | .hbm, ⟨53, _⟩ => ⟨S20000x800, .f32⟩
  | .hbm, ⟨54, _⟩ => ⟨S160000x1, .f32⟩
  | .hbm, ⟨55, _⟩ => ⟨S_, .i32⟩
  | .hbm, ⟨56, _⟩ => ⟨S160000, .i32⟩
  | .hbm, ⟨57, _⟩ => ⟨S160000, .i1⟩
  | .hbm, ⟨58, _⟩ => ⟨S_, .i32⟩
  | .hbm, ⟨59, _⟩ => ⟨S160000, .i32⟩
  | .hbm, ⟨60, _⟩ => ⟨S160000, .i32⟩
  | .hbm, ⟨61, _⟩ => ⟨S160000, .i32⟩
  | .hbm, ⟨62, _⟩ => ⟨S160000x1, .i32⟩
  | .hbm, ⟨63, _⟩ => ⟨S160000x800, .f32⟩
  | .hbm, ⟨64, _⟩ => ⟨S160000x800, .f32⟩
  | .hbm, ⟨65, _⟩ => ⟨S160000x800, .f32⟩
  | .hbm, ⟨66, _⟩ => ⟨S_, .f32⟩
  | .hbm, ⟨67, _⟩ => ⟨S20000x800, .f32⟩
  | .hbm, ⟨68, _⟩ => ⟨S160000x1, .i32⟩
  | .hbm, ⟨69, _⟩ => ⟨S20000x800, .f32⟩
  | .hbm, ⟨70, _⟩ => ⟨S_, .f32⟩
  | .hbm, ⟨71, _⟩ => ⟨S20000x800, .f32⟩
  | .hbm, ⟨72, _⟩ => ⟨S20000x800, .f32⟩
  | .hbm, ⟨73, _⟩ => ⟨S20000x200, .f32⟩
  | .hbm, ⟨74, _⟩ => ⟨S160000x1, .f32⟩
  | .hbm, ⟨75, _⟩ => ⟨S_, .i32⟩
  | .hbm, ⟨76, _⟩ => ⟨S160000, .i32⟩
  | .hbm, ⟨77, _⟩ => ⟨S160000, .i1⟩
  | .hbm, ⟨78, _⟩ => ⟨S_, .i32⟩
  | .hbm, ⟨79, _⟩ => ⟨S160000, .i32⟩
  | .hbm, ⟨80, _⟩ => ⟨S160000, .i32⟩
  | .hbm, ⟨81, _⟩ => ⟨S160000, .i32⟩
  | .hbm, ⟨82, _⟩ => ⟨S160000x1, .i32⟩
  | .hbm, ⟨83, _⟩ => ⟨S160000x200, .f32⟩
  | .hbm, ⟨84, _⟩ => ⟨S160000x200, .f32⟩
  | .hbm, ⟨85, _⟩ => ⟨S160000x200, .f32⟩
  | .hbm, ⟨86, _⟩ => ⟨S_, .f32⟩
  | .hbm, ⟨87, _⟩ => ⟨S20000x200, .f32⟩
  | .hbm, ⟨88, _⟩ => ⟨S160000x1, .i32⟩
  | .hbm, ⟨89, _⟩ => ⟨S20000x200, .f32⟩
  | .hbm, ⟨90, _⟩ => ⟨S_, .f32⟩
  | .hbm, ⟨91, _⟩ => ⟨S20000x200, .f32⟩
  | .hbm, ⟨92, _⟩ => ⟨S20000x200, .f32⟩
  | .hbm, ⟨93, _⟩ => ⟨S_, .f32⟩
  | .hbm, ⟨94, _⟩ => ⟨S20000x200, .f32⟩
  | .hbm, ⟨95, _⟩ => ⟨S20000x200, .f32⟩
  | .hbm, ⟨96, _⟩ => ⟨S_, .f32⟩
  | .hbm, ⟨97, _⟩ => ⟨S20000x200, .f32⟩
  | .hbm, ⟨98, _⟩ => ⟨S20000x200, .f32⟩
  | .hbm, ⟨99, _⟩ => ⟨S20000x200, .f32⟩
  | .hbm, ⟨100, _⟩ => ⟨S131072x1, .i32⟩
  | .hbm, ⟨101, _⟩ => ⟨S131072, .i32⟩
  | .hbm, ⟨102, _⟩ => ⟨S_, .i32⟩
  | .hbm, ⟨103, _⟩ => ⟨S131072, .i32⟩
  | .hbm, ⟨104, _⟩ => ⟨S131072, .i1⟩
  | .hbm, ⟨105, _⟩ => ⟨S_, .i32⟩
  | .hbm, ⟨106, _⟩ => ⟨S131072, .i32⟩
  | .hbm, ⟨107, _⟩ => ⟨S131072, .i32⟩
  | .hbm, ⟨108, _⟩ => ⟨S131072, .i32⟩
  | .hbm, ⟨109, _⟩ => ⟨S131072x1, .i32⟩
  | .hbm, ⟨110, _⟩ => ⟨S131072x200, .f32⟩
  | .hbm, ⟨111, _⟩ => ⟨S131072x1, .i32⟩
  | .hbm, ⟨112, _⟩ => ⟨S131072, .i32⟩
  | .hbm, ⟨113, _⟩ => ⟨S_, .i32⟩
  | .hbm, ⟨114, _⟩ => ⟨S131072, .i32⟩
  | .hbm, ⟨115, _⟩ => ⟨S131072, .i1⟩
  | .hbm, ⟨116, _⟩ => ⟨S_, .i32⟩
  | .hbm, ⟨117, _⟩ => ⟨S131072, .i32⟩
  | .hbm, ⟨118, _⟩ => ⟨S131072, .i32⟩
  | .hbm, ⟨119, _⟩ => ⟨S131072, .i32⟩
  | .hbm, ⟨120, _⟩ => ⟨S131072x1, .i32⟩
  | .hbm, ⟨121, _⟩ => ⟨S131072x200, .f32⟩
  | .hbm, ⟨122, _⟩ => ⟨S131072x400, .f32⟩
  | .hbm, ⟨123, _⟩ => ⟨S1x64, .f32⟩
  | .hbm, ⟨124, _⟩ => ⟨S131072x1, .f32⟩
  | .local _ .vmem, ⟨0, _⟩ => ⟨S2000x512, .f32⟩
  | .local _ .vmem, ⟨1, _⟩ => ⟨S2000x512, .f32⟩
  | .local _ .vmem, ⟨2, _⟩ => ⟨S512x800, .f32⟩
  | .local _ .vmem, ⟨3, _⟩ => ⟨S2000x800, .f32⟩
  | .local _ .vmem, ⟨4, _⟩ => ⟨S2000x800, .f32⟩
  | .local _ .vmem, ⟨5, _⟩ => ⟨S2000x800, .f32⟩
  | .local _ .vmem, ⟨6, _⟩ => ⟨S2000x800, .f32⟩
  | .local _ .vmem, ⟨7, _⟩ => ⟨S800x200, .f32⟩
  | .local _ .vmem, ⟨8, _⟩ => ⟨S2000x200, .f32⟩
  | .local _ .vmem, ⟨9, _⟩ => ⟨S2000x200, .f32⟩
  | .local _ .vmem, ⟨10, _⟩ => ⟨S2000x512, .f32⟩
  | .local _ .vmem, ⟨11, _⟩ => ⟨S2000x512, .f32⟩
  | .local _ .vmem, ⟨12, _⟩ => ⟨S512x800, .f32⟩
  | .local _ .vmem, ⟨13, _⟩ => ⟨S2000x800, .f32⟩
  | .local _ .vmem, ⟨14, _⟩ => ⟨S2000x800, .f32⟩
  | .local _ .vmem, ⟨15, _⟩ => ⟨S2000x800, .f32⟩
  | .local _ .vmem, ⟨16, _⟩ => ⟨S2000x800, .f32⟩
  | .local _ .vmem, ⟨17, _⟩ => ⟨S800x200, .f32⟩
  | .local _ .vmem, ⟨18, _⟩ => ⟨S2000x200, .f32⟩
  | .local _ .vmem, ⟨19, _⟩ => ⟨S2000x200, .f32⟩
  | .local _ .vmem, ⟨20, _⟩ => ⟨S4096x400, .f32⟩
  | .local _ .vmem, ⟨21, _⟩ => ⟨S4096x400, .f32⟩
  | .local _ .vmem, ⟨22, _⟩ => ⟨S400x64, .f32⟩
  | .local _ .vmem, ⟨23, _⟩ => ⟨S1x64, .f32⟩
  | .local _ .vmem, ⟨24, _⟩ => ⟨S64x1, .f32⟩
  | .local _ .vmem, ⟨25, _⟩ => ⟨S4096x1, .f32⟩
  | .local _ .vmem, ⟨26, _⟩ => ⟨S4096x1, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call0_cst : Ref sig .tc := ⟨.hbm, 30, rfl⟩
abbrev main_call0_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call1_cst : Ref sig .tc := ⟨.hbm, 50, rfl⟩
abbrev main_call1_v0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call2_cst : Ref sig .tc := ⟨.hbm, 70, rfl⟩
abbrev main_call2_v0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_7 : Ref sig .tc := ⟨.hbm, 75, rfl⟩
abbrev main_v47 : Ref sig .tc := ⟨.hbm, 76, rfl⟩
abbrev main_v48 : Ref sig .tc := ⟨.hbm, 77, rfl⟩
abbrev main_c_8 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call3_cst : Ref sig .tc := ⟨.hbm, 90, rfl⟩
abbrev main_call3_v0 : Ref sig .tc := ⟨.hbm, 91, rfl⟩
abbrev main_v59 : Ref sig .tc := ⟨.hbm, 92, rfl⟩
abbrev main_cst_10 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_12 : Ref sig .tc := ⟨.hbm, 102, rfl⟩
abbrev main_v67 : Ref sig .tc := ⟨.hbm, 103, rfl⟩
abbrev main_v68 : Ref sig .tc := ⟨.hbm, 104, rfl⟩
abbrev main_c_13 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_14 : Ref sig .tc := ⟨.hbm, 113, rfl⟩
abbrev main_v76 : Ref sig .tc := ⟨.hbm, 114, rfl⟩
abbrev main_v77 : Ref sig .tc := ⟨.hbm, 115, rfl⟩
abbrev main_c_15 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg4_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem4_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x800 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x800 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S800x200 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x800 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x800 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x800 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S800x200 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x200 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x400 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S400x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4096x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x800_S512x800_0_0 : ∀ a, (![0, 0] : Fin 2 → Nat) a + S512x800.size a ≤ S512x800.size a
  h_S512x800 : 0 < S512x800.numel
  inb_S2000x800_S2000x800_0_0 : ∀ a, (![0, 0] : Fin 2 → Nat) a + S2000x800.size a ≤ S2000x800.size a
  h_S2000x800 : 0 < S2000x800.numel
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x800_0_1 : S160000x1.BroadcastsInDim S160000x800 (![0, 1] : Fin 2 → Fin S160000x800.rank)
  bcast_S_S20000x800 : S_.BroadcastsInDim S20000x800 (![] : Fin 0 → Fin S20000x800.rank)
  shapeCasts_S2000x800_S2000x800 : S2000x800.ShapeCasts S2000x800
  inb_S800x200_S800x200_0_0 : ∀ a, (![0, 0] : Fin 2 → Nat) a + S800x200.size a ≤ S800x200.size a
  h_S800x200 : 0 < S800x200.numel
  inb_S2000x200_S2000x200_0_0 : ∀ a, (![0, 0] : Fin 2 → Nat) a + S2000x200.size a ≤ S2000x200.size a
  h_S2000x200 : 0 < S2000x200.numel
  bcast_S160000x1_S160000x200_0_1 : S160000x1.BroadcastsInDim S160000x200 (![0, 1] : Fin 2 → Fin S160000x200.rank)
  bcast_S_S20000x200 : S_.BroadcastsInDim S20000x200 (![] : Fin 0 → Fin S20000x200.rank)
  slices_S131072x2_S131072x1_0_0 : S131072x2.Slices ![0, 0] S131072x1
  shapeCasts_S131072x1_S131072 : S131072x1.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S131072x2_S131072x1_0_1 : S131072x2.Slices ![0, 1] S131072x1
  concatenates_S131072x200_S131072x200_S131072x400_d1 : Shape.Concatenates [S131072x200, S131072x200] S131072x400 1
  shapeCasts_S64_S1x64 : S64.ShapeCasts S1x64
  inb_S4096x400_S4096x400_0_0 : ∀ a, (![0, 0] : Fin 2 → Nat) a + S4096x400.size a ≤ S4096x400.size a
  h_S4096x400 : 0 < S4096x400.numel
  shapeCasts_S4096x400_S4096x400 : S4096x400.ShapeCasts S4096x400
  inb_S400x64_S400x64_0_0 : ∀ a, (![0, 0] : Fin 2 → Nat) a + S400x64.size a ≤ S400x64.size a
  h_S400x64 : 0 < S400x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x1_S64x1_0_0 : ∀ a, (![0, 0] : Fin 2 → Nat) a + S64x1.size a ≤ S64x1.size a
  h_S64x1 : 0 < S64x1.numel
  inb_S4096x1_S4096x1_0_0 : ∀ a, (![0, 0] : Fin 2 → Nat) a + S4096x1.size a ≤ S4096x1.size a
  h_S4096x1 : 0 < S4096x1.numel
  dot_S2000x512_S512x800_S2000x800_1_0_0_1_n_n_wf : DotDims.WF S2000x512 S512x800 S2000x800 [1] [0] [0] [1] [] []
  gather_S20000x800_S160000x1_S160000x800_1_0_n_n_0_1_1800_wf : GatherDims.WF S20000x800 S160000x1 S160000x800 [1] [0] [] [0] [] 1 ![1, 800]
  scatter_S20000x800_S160000x1_S160000x800_1_0_0_1_wf : ScatterDims.WF S20000x800 S160000x1 S160000x800 [1] [0] [0] 1
  dot_S2000x800_S800x200_S2000x200_1_0_0_1_n_n_wf : DotDims.WF S2000x800 S800x200 S2000x200 [1] [0] [0] [1] [] []
  gather_S20000x200_S160000x1_S160000x200_1_0_n_n_0_1_1200_wf : GatherDims.WF S20000x200 S160000x1 S160000x200 [1] [0] [] [0] [] 1 ![1, 200]
  scatter_S20000x200_S160000x1_S160000x200_1_0_0_1_wf : ScatterDims.WF S20000x200 S160000x1 S160000x200 [1] [0] [0] 1
  gather_S20000x200_S131072x1_S131072x200_1_0_n_n_0_1_1200_wf : GatherDims.WF S20000x200 S131072x1 S131072x200 [1] [0] [] [0] [] 1 ![1, 200]
  dot_S4096x400_S400x64_S4096x64_1_0_0_1_n_n_wf : DotDims.WF S4096x400 S400x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .f32 = 32 ∨ (Rect.block (s := S20000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x800.size a ≤ S512x800.size a
  hwx0_1 : ∀ i : grid0.Coords, EltTy.bits .f32 = 32 ∨ (Rect.block (s := S512x800) S512x800.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x800.size a ≤ S20000x800.size a
  hwx0_2 : ∀ i : grid0.Coords, EltTy.bits .f32 = 32 ∨ (Rect.block (s := S20000x800) S2000x800.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x800.size a ≤ S20000x800.size a
  hwx1_0 : ∀ i : grid1.Coords, EltTy.bits .f32 = 32 ∨ (Rect.block (s := S20000x800) S2000x800.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S800x200.size a ≤ S800x200.size a
  hwx1_1 : ∀ i : grid1.Coords, EltTy.bits .f32 = 32 ∨ (Rect.block (s := S800x200) S800x200.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x200.size a ≤ S20000x200.size a
  hwx1_2 : ∀ i : grid1.Coords, EltTy.bits .f32 = 32 ∨ (Rect.block (s := S20000x200) S2000x200.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S20000x512.size a
  hwx2_0 : ∀ i : grid2.Coords, EltTy.bits .f32 = 32 ∨ (Rect.block (s := S20000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x800.size a ≤ S512x800.size a
  hwx2_1 : ∀ i : grid2.Coords, EltTy.bits .f32 = 32 ∨ (Rect.block (s := S512x800) S512x800.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x800.size a ≤ S20000x800.size a
  hwx2_2 : ∀ i : grid2.Coords, EltTy.bits .f32 = 32 ∨ (Rect.block (s := S20000x800) S2000x800.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x800.size a ≤ S20000x800.size a
  hwx3_0 : ∀ i : grid3.Coords, EltTy.bits .f32 = 32 ∨ (Rect.block (s := S20000x800) S2000x800.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S800x200.size a ≤ S800x200.size a
  hwx3_1 : ∀ i : grid3.Coords, EltTy.bits .f32 = 32 ∨ (Rect.block (s := S800x200) S800x200.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x200.size a ≤ S20000x200.size a
  hwx3_2 : ∀ i : grid3.Coords, EltTy.bits .f32 = 32 ∨ (Rect.block (s := S20000x200) S2000x200.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x400.size a ≤ S131072x400.size a
  hwx4_0 : ∀ i : grid4.Coords, EltTy.bits .f32 = 32 ∨ (Rect.block (s := S131072x400) S4096x400.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S400x64.size a ≤ S400x64.size a
  hwx4_1 : ∀ i : grid4.Coords, EltTy.bits .f32 = 32 ∨ (Rect.block (s := S400x64) S400x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4096x1.size a ≤ S131072x1.size a
  hwx4_4 : ∀ i : grid4.Coords, EltTy.bits .f32 = 32 ∨ (Rect.block (s := S131072x1) S4096x1.size (cc4_transform_4 i) (hinb4_4 i)).WholeWords (EltTy.packing .f32)

variable [Facts₀]

def dot_S2000x512_S512x800_S2000x800_1_0_0_1_n_n : DotDims S2000x512 S512x800 S2000x800 where
  lhsContracting := [1]
  rhsContracting := [0]
  lhsNonContracting := [0]
  rhsNonContracting := [1]
  lhsBatch := []
  rhsBatch := []
  wf := dot_S2000x512_S512x800_S2000x800_1_0_0_1_n_n_wf
def gather_S20000x800_S160000x1_S160000x800_1_0_n_n_0_1_1800 : GatherDims S20000x800 S160000x1 S160000x800 where
  offsetDims := [1]
  collapsedSliceDims := [0]
  operandBatchingDims := []
  startIndicesBatchingDims := []
  startIndexMap := [0]
  indexVectorDim := 1
  sliceSizes := ![1, 800]
  wf := gather_S20000x800_S160000x1_S160000x800_1_0_n_n_0_1_1800_wf
def scatter_S20000x800_S160000x1_S160000x800_1_0_0_1 : ScatterDims S20000x800 S160000x1 S160000x800 where
  updateWindowDims := [1]
  insertedWindowDims := [0]
  scatterDimsToOperandDims := [0]
  indexVectorDim := 1
  wf := scatter_S20000x800_S160000x1_S160000x800_1_0_0_1_wf
def dot_S2000x800_S800x200_S2000x200_1_0_0_1_n_n : DotDims S2000x800 S800x200 S2000x200 where
  lhsContracting := [1]
  rhsContracting := [0]
  lhsNonContracting := [0]
  rhsNonContracting := [1]
  lhsBatch := []
  rhsBatch := []
  wf := dot_S2000x800_S800x200_S2000x200_1_0_0_1_n_n_wf
def gather_S20000x200_S160000x1_S160000x200_1_0_n_n_0_1_1200 : GatherDims S20000x200 S160000x1 S160000x200 where
  offsetDims := [1]
  collapsedSliceDims := [0]
  operandBatchingDims := []
  startIndicesBatchingDims := []
  startIndexMap := [0]
  indexVectorDim := 1
  sliceSizes := ![1, 200]
  wf := gather_S20000x200_S160000x1_S160000x200_1_0_n_n_0_1_1200_wf
def scatter_S20000x200_S160000x1_S160000x200_1_0_0_1 : ScatterDims S20000x200 S160000x1 S160000x200 where
  updateWindowDims := [1]
  insertedWindowDims := [0]
  scatterDimsToOperandDims := [0]
  indexVectorDim := 1
  wf := scatter_S20000x200_S160000x1_S160000x200_1_0_0_1_wf
def gather_S20000x200_S131072x1_S131072x200_1_0_n_n_0_1_1200 : GatherDims S20000x200 S131072x1 S131072x200 where
  offsetDims := [1]
  collapsedSliceDims := [0]
  operandBatchingDims := []
  startIndicesBatchingDims := []
  startIndexMap := [0]
  indexVectorDim := 1
  sliceSizes := ![1, 200]
  wf := gather_S20000x200_S131072x1_S131072x200_1_0_n_n_0_1_1200_wf
def dot_S4096x400_S400x64_S4096x64_1_0_0_1_n_n : DotDims S4096x400 S400x64 S4096x64 where
  lhsContracting := [1]
  rhsContracting := [0]
  lhsNonContracting := [0]
  rhsNonContracting := [1]
  lhsBatch := []
  rhsBatch := []
  wf := dot_S4096x400_S400x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S512x800.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x800.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2000x800.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S800x200.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x200.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S512x800.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S2000x800.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S2000x800.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S800x200.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S2000x200.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v83) S4096x400.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S400x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S4096x1.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S20000x512 : Shape := ⟨2, ![20000, 512]⟩
abbrev S160000 : Shape := ⟨1, ![160000]⟩
abbrev S131072x2 : Shape := ⟨2, ![131072, 2]⟩
abbrev S512x800 : Shape := ⟨2, ![512, 800]⟩
abbrev S800x200 : Shape := ⟨2, ![800, 200]⟩
abbrev S400x64 : Shape := ⟨2, ![400, 64]⟩
abbrev S64 : Shape := ⟨1, ![64]⟩
abbrev S64x1 : Shape := ⟨2, ![64, 1]⟩
abbrev S20000x800 : Shape := ⟨2, ![20000, 800]⟩
abbrev S160000x1 : Shape := ⟨2, ![160000, 1]⟩
abbrev S_ : Shape := ⟨0, ![]⟩
abbrev S160000x800 : Shape := ⟨2, ![160000, 800]⟩
abbrev S20000x200 : Shape := ⟨2, ![20000, 200]⟩
abbrev S160000x200 : Shape := ⟨2, ![160000, 200]⟩
abbrev S131072x1 : Shape := ⟨2, ![131072, 1]⟩
abbrev S131072 : Shape := ⟨1, ![131072]⟩
abbrev S131072x200 : Shape := ⟨2, ![131072, 200]⟩
abbrev S131072x400 : Shape := ⟨2, ![131072, 400]⟩
abbrev S131072x64 : Shape := ⟨2, ![131072, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S20000x512, .f32⟩
  | 1 => ⟨S20000x512, .f32⟩
  | 2 => ⟨S160000, .i32⟩
  | 3 => ⟨S160000, .i32⟩
  | 4 => ⟨S160000, .f32⟩
  | 5 => ⟨S131072x2, .i32⟩
  | 6 => ⟨S512x800, .f32⟩
  | 7 => ⟨S800x200, .f32⟩
  | 8 => ⟨S512x800, .f32⟩
  | 9 => ⟨S800x200, .f32⟩
  | 10 => ⟨S400x64, .f32⟩
  | 11 => ⟨S64, .f32⟩
  | 12 => ⟨S64x1, .f32⟩
  | 13 => ⟨S20000x800, .f32⟩
  | 14 => ⟨S160000x1, .f32⟩
  | 15 => ⟨S_, .i32⟩
  | 16 => ⟨S160000, .i32⟩
  | 17 => ⟨S160000, .i1⟩
  | 18 => ⟨S_, .i32⟩
  | 19 => ⟨S160000, .i32⟩
  | 20 => ⟨S160000, .i32⟩
  | 21 => ⟨S160000, .i32⟩
  | 22 => ⟨S160000x1, .i32⟩
  | 23 => ⟨S160000x800, .f32⟩
  | 24 => ⟨S160000x800, .f32⟩
  | 25 => ⟨S160000x800, .f32⟩
  | 26 => ⟨S_, .f32⟩
  | 27 => ⟨S20000x800, .f32⟩
  | 28 => ⟨S160000x1, .i32⟩
  | 29 => ⟨S20000x800, .f32⟩
  | 30 => ⟨S_, .f32⟩
  | 31 => ⟨S20000x800, .f32⟩
  | 32 => ⟨S20000x800, .f32⟩
  | 33 => ⟨S20000x200, .f32⟩
  | 34 => ⟨S160000x1, .f32⟩
  | 35 => ⟨S_, .i32⟩
  | 36 => ⟨S160000, .i32⟩
  | 37 => ⟨S160000, .i1⟩
  | 38 => ⟨S_, .i32⟩
  | 39 => ⟨S160000, .i32⟩
  | 40 => ⟨S160000, .i32⟩
  | 41 => ⟨S160000, .i32⟩
  | 42 => ⟨S160000x1, .i32⟩
  | 43 => ⟨S160000x200, .f32⟩
  | 44 => ⟨S160000x200, .f32⟩
  | 45 => ⟨S160000x200, .f32⟩
  | 46 => ⟨S_, .f32⟩
  | 47 => ⟨S20000x200, .f32⟩
  | 48 => ⟨S160000x1, .i32⟩
  | 49 => ⟨S20000x200, .f32⟩
  | 50 => ⟨S_, .f32⟩
  | 51 => ⟨S20000x200, .f32⟩
  | 52 => ⟨S20000x200, .f32⟩
  | 53 => ⟨S20000x800, .f32⟩
  | 54 => ⟨S160000x1, .f32⟩
  | 55 => ⟨S_, .i32⟩
  | 56 => ⟨S160000, .i32⟩
  | 57 => ⟨S160000, .i1⟩
  | 58 => ⟨S_, .i32⟩
  | 59 => ⟨S160000, .i32⟩
  | 60 => ⟨S160000, .i32⟩
  | 61 => ⟨S160000, .i32⟩
  | 62 => ⟨S160000x1, .i32⟩
  | 63 => ⟨S160000x800, .f32⟩
  | 64 => ⟨S160000x800, .f32⟩
  | 65 => ⟨S160000x800, .f32⟩
  | 66 => ⟨S_, .f32⟩
  | 67 => ⟨S20000x800, .f32⟩
  | 68 => ⟨S160000x1, .i32⟩
  | 69 => ⟨S20000x800, .f32⟩
  | 70 => ⟨S_, .f32⟩
  | 71 => ⟨S20000x800, .f32⟩
  | 72 => ⟨S20000x800, .f32⟩
  | 73 => ⟨S20000x200, .f32⟩
  | 74 => ⟨S160000x1, .f32⟩
  | 75 => ⟨S_, .i32⟩
  | 76 => ⟨S160000, .i32⟩
  | 77 => ⟨S160000, .i1⟩
  | 78 => ⟨S_, .i32⟩
  | 79 => ⟨S160000, .i32⟩
  | 80 => ⟨S160000, .i32⟩
  | 81 => ⟨S160000, .i32⟩
  | 82 => ⟨S160000x1, .i32⟩
  | 83 => ⟨S160000x200, .f32⟩
  | 84 => ⟨S160000x200, .f32⟩
  | 85 => ⟨S160000x200, .f32⟩
  | 86 => ⟨S_, .f32⟩
  | 87 => ⟨S20000x200, .f32⟩
  | 88 => ⟨S160000x1, .i32⟩
  | 89 => ⟨S20000x200, .f32⟩
  | 90 => ⟨S_, .f32⟩
  | 91 => ⟨S20000x200, .f32⟩
  | 92 => ⟨S20000x200, .f32⟩
  | 93 => ⟨S_, .f32⟩
  | 94 => ⟨S20000x200, .f32⟩
  | 95 => ⟨S20000x200, .f32⟩
  | 96 => ⟨S_, .f32⟩
  | 97 => ⟨S20000x200, .f32⟩
  | 98 => ⟨S20000x200, .f32⟩
  | 99 => ⟨S20000x200, .f32⟩
  | 100 => ⟨S131072x1, .i32⟩
  | 101 => ⟨S131072, .i32⟩
  | 102 => ⟨S_, .i32⟩
  | 103 => ⟨S131072, .i32⟩
  | 104 => ⟨S131072, .i1⟩
  | 105 => ⟨S_, .i32⟩
  | 106 => ⟨S131072, .i32⟩
  | 107 => ⟨S131072, .i32⟩
  | 108 => ⟨S131072, .i32⟩
  | 109 => ⟨S131072x1, .i32⟩
  | 110 => ⟨S131072x200, .f32⟩
  | 111 => ⟨S131072x1, .i32⟩
  | 112 => ⟨S131072, .i32⟩
  | 113 => ⟨S_, .i32⟩
  | 114 => ⟨S131072, .i32⟩
  | 115 => ⟨S131072, .i1⟩
  | 116 => ⟨S_, .i32⟩
  | 117 => ⟨S131072, .i32⟩
  | 118 => ⟨S131072, .i32⟩
  | 119 => ⟨S131072, .i32⟩
  | 120 => ⟨S131072x1, .i32⟩
  | 121 => ⟨S131072x200, .f32⟩
  | 122 => ⟨S131072x400, .f32⟩
  | 123 => ⟨S131072x64, .f32⟩
  | 124 => ⟨S1x64, .f32⟩
  | 125 => ⟨S131072x64, .f32⟩
  | 126 => ⟨S131072x64, .f32⟩
  | 127 => ⟨S_, .f32⟩
  | _ => ⟨S20000x512, .f32⟩

abbrev hbmTy0_1 (i : Nat) : BufTy := match i % 128 with
  | 0 => ⟨S131072x64, .f32⟩
  | 1 => ⟨S131072x64, .f32⟩
  | 2 => ⟨S131072x1, .f32⟩
  | 3 => ⟨S_, .f32⟩
  | 4 => ⟨S131072x1, .f32⟩
  | 5 => ⟨S131072x1, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call0_cst : Ref sig .tc := ⟨.hbm, 30, rfl⟩
abbrev main_call0_v0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_1 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call1_cst : Ref sig .tc := ⟨.hbm, 50, rfl⟩
abbrev main_call1_v0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call2_cst : Ref sig .tc := ⟨.hbm, 70, rfl⟩
abbrev main_call2_v0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_7 : Ref sig .tc := ⟨.hbm, 75, rfl⟩
abbrev main_v47 : Ref sig .tc := ⟨.hbm, 76, rfl⟩
abbrev main_v48 : Ref sig .tc := ⟨.hbm, 77, rfl⟩
abbrev main_c_8 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call3_cst : Ref sig .tc := ⟨.hbm, 90, rfl⟩
abbrev main_call3_v0 : Ref sig .tc := ⟨.hbm, 91, rfl⟩
abbrev main_v59 : Ref sig .tc := ⟨.hbm, 92, rfl⟩
abbrev main_cst_10 : Ref sig .tc := ⟨.hbm, 93, rfl⟩
abbrev main_v60 : Ref sig .tc := ⟨.hbm, 94, rfl⟩
abbrev main_v61 : Ref sig .tc := ⟨.hbm, 95, rfl⟩
abbrev main_cst_11 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_12 : Ref sig .tc := ⟨.hbm, 102, rfl⟩
abbrev main_v67 : Ref sig .tc := ⟨.hbm, 103, rfl⟩
abbrev main_v68 : Ref sig .tc := ⟨.hbm, 104, rfl⟩
abbrev main_c_13 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_14 : Ref sig .tc := ⟨.hbm, 113, rfl⟩
abbrev main_v76 : Ref sig .tc := ⟨.hbm, 114, rfl⟩
abbrev main_v77 : Ref sig .tc := ⟨.hbm, 115, rfl⟩
abbrev main_c_15 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_call4_cst : Ref sig .tc := ⟨.hbm, 127, rfl⟩
abbrev main_call4_v0 : Ref sig .tc := ⟨.hbm, 128, rfl⟩
abbrev main_v88 : Ref sig .tc := ⟨.hbm, 129, rfl⟩
abbrev main_v89 : Ref sig .tc := ⟨.hbm, 130, rfl⟩
abbrev main_call5_cst : Ref sig .tc := ⟨.hbm, 131, rfl⟩
abbrev main_call5_v0 : Ref sig .tc := ⟨.hbm, 132, rfl⟩
abbrev main_v90 : Ref sig .tc := ⟨.hbm, 133, rfl⟩

abbrev nD : Nat := 1
abbrev τ : Topo := Topo.v7x

variable {F : FTy → Type} [FloatOps F]

class Facts₀ : Prop where
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x800_0_1 : S160000x1.BroadcastsInDim S160000x800 (![0, 1] : Fin 2 → Fin S160000x800.rank)
  bcast_S_S20000x800 : S_.BroadcastsInDim S20000x800 (![] : Fin 0 → Fin S20000x800.rank)
  bcast_S160000x1_S160000x200_0_1 : S160000x1.BroadcastsInDim S160000x200 (![0, 1] : Fin 2 → Fin S160000x200.rank)
  bcast_S_S20000x200 : S_.BroadcastsInDim S20000x200 (![] : Fin 0 → Fin S20000x200.rank)
  slices_S131072x2_S131072x1_0_0 : S131072x2.Slices ![0, 0] S131072x1
  shapeCasts_S131072x1_S131072 : S131072x1.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S131072x2_S131072x1_0_1 : S131072x2.Slices ![0, 1] S131072x1
  concatenates_S131072x200_S131072x200_S131072x400_d1 : Shape.Concatenates [S131072x200, S131072x200] S131072x400 1
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S_S131072x1 : S_.BroadcastsInDim S131072x1 (![] : Fin 0 → Fin S131072x1.rank)
  dot_S20000x512_S512x800_S20000x800_1_0_0_1_n_n_wf : DotDims.WF S20000x512 S512x800 S20000x800 [1] [0] [0] [1] [] []
  gather_S20000x800_S160000x1_S160000x800_1_0_n_n_0_1_1800_wf : GatherDims.WF S20000x800 S160000x1 S160000x800 [1] [0] [] [0] [] 1 ![1, 800]
  scatter_S20000x800_S160000x1_S160000x800_1_0_0_1_wf : ScatterDims.WF S20000x800 S160000x1 S160000x800 [1] [0] [0] 1
  dot_S20000x800_S800x200_S20000x200_1_0_0_1_n_n_wf : DotDims.WF S20000x800 S800x200 S20000x200 [1] [0] [0] [1] [] []
  gather_S20000x200_S160000x1_S160000x200_1_0_n_n_0_1_1200_wf : GatherDims.WF S20000x200 S160000x1 S160000x200 [1] [0] [] [0] [] 1 ![1, 200]
  scatter_S20000x200_S160000x1_S160000x200_1_0_0_1_wf : ScatterDims.WF S20000x200 S160000x1 S160000x200 [1] [0] [0] 1
  gather_S20000x200_S131072x1_S131072x200_1_0_n_n_0_1_1200_wf : GatherDims.WF S20000x200 S131072x1 S131072x200 [1] [0] [] [0] [] 1 ![1, 200]
  dot_S131072x400_S400x64_S131072x64_1_0_0_1_n_n_wf : DotDims.WF S131072x400 S400x64 S131072x64 [1] [0] [0] [1] [] []
  dot_S131072x64_S64x1_S131072x1_1_0_0_1_n_n_wf : DotDims.WF S131072x64 S64x1 S131072x1 [1] [0] [0] [1] [] []

variable [Facts₀]

def dot_S20000x512_S512x800_S20000x800_1_0_0_1_n_n : DotDims S20000x512 S512x800 S20000x800 where
  lhsContracting := [1]
  rhsContracting := [0]
  lhsNonContracting := [0]
  rhsNonContracting := [1]
  lhsBatch := []
  rhsBatch := []
  wf := dot_S20000x512_S512x800_S20000x800_1_0_0_1_n_n_wf
def gather_S20000x800_S160000x1_S160000x800_1_0_n_n_0_1_1800 : GatherDims S20000x800 S160000x1 S160000x800 where
  offsetDims := [1]
  collapsedSliceDims := [0]
  operandBatchingDims := []
  startIndicesBatchingDims := []
  startIndexMap := [0]
  indexVectorDim := 1
  sliceSizes := ![1, 800]
  wf := gather_S20000x800_S160000x1_S160000x800_1_0_n_n_0_1_1800_wf
def scatter_S20000x800_S160000x1_S160000x800_1_0_0_1 : ScatterDims S20000x800 S160000x1 S160000x800 where
  updateWindowDims := [1]
  insertedWindowDims := [0]
  scatterDimsToOperandDims := [0]
  indexVectorDim := 1
  wf := scatter_S20000x800_S160000x1_S160000x800_1_0_0_1_wf
def dot_S20000x800_S800x200_S20000x200_1_0_0_1_n_n : DotDims S20000x800 S800x200 S20000x200 where
  lhsContracting := [1]
  rhsContracting := [0]
  lhsNonContracting := [0]
  rhsNonContracting := [1]
  lhsBatch := []
  rhsBatch := []
  wf := dot_S20000x800_S800x200_S20000x200_1_0_0_1_n_n_wf
def gather_S20000x200_S160000x1_S160000x200_1_0_n_n_0_1_1200 : GatherDims S20000x200 S160000x1 S160000x200 where
  offsetDims := [1]
  collapsedSliceDims := [0]
  operandBatchingDims := []
  startIndicesBatchingDims := []
  startIndexMap := [0]
  indexVectorDim := 1
  sliceSizes := ![1, 200]
  wf := gather_S20000x200_S160000x1_S160000x200_1_0_n_n_0_1_1200_wf
def scatter_S20000x200_S160000x1_S160000x200_1_0_0_1 : ScatterDims S20000x200 S160000x1 S160000x200 where
  updateWindowDims := [1]
  insertedWindowDims := [0]
  scatterDimsToOperandDims := [0]
  indexVectorDim := 1
  wf := scatter_S20000x200_S160000x1_S160000x200_1_0_0_1_wf
def gather_S20000x200_S131072x1_S131072x200_1_0_n_n_0_1_1200 : GatherDims S20000x200 S131072x1 S131072x200 where
  offsetDims := [1]
  collapsedSliceDims := [0]
  operandBatchingDims := []
  startIndicesBatchingDims := []
  startIndexMap := [0]
  indexVectorDim := 1
  sliceSizes := ![1, 200]
  wf := gather_S20000x200_S131072x1_S131072x200_1_0_n_n_0_1_1200_wf
def dot_S131072x400_S400x64_S131072x64_1_0_0_1_n_n : DotDims S131072x400 S400x64 S131072x64 where
  lhsContracting := [1]
  rhsContracting := [0]
  lhsNonContracting := [0]
  rhsNonContracting := [1]
  lhsBatch := []
  rhsBatch := []
  wf := dot_S131072x400_S400x64_S131072x64_1_0_0_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf

class Facts : Prop extends Facts₀ where

variable [Facts]
-- ==== Proof.Spec.lean ====
/-
  What each launched kernel must leave in its output array, and the host stages between the launches, each as
  ONE function of the arrays it reads.

  The network is two graph-convolution towers followed by an edge predictor.  A tower multiplies the node
  features by a weight matrix (`proj1`), aggregates over the sparse adjacency and clips at zero
  (`aggClip800`: gather the rows the edge list names, scale each by its edge weight, add them into the rows the
  edge list targets, take the maximum with zero), and does the same once more at width 200 (`proj2`,
  `aggClip200`).  The predictor averages the two towers, gathers the two rows each training pair names and joins
  them (`pairFeatures`), and applies a two-layer perceptron clipped at zero after each layer (`edgeMlp`).

  Only the dense products run in launched kernels; every other stage is the same host operation in both
  programs, so it is named here once and never opened.  What is left to compare:

  * `proj1`, `proj2`: a product of a 20000-row matrix by a weight matrix, computed 2000 rows at a time into a
    zero accumulator, is the whole product `∑ k, A (r, k) * B (k, j)` — over the extended reals both are the same
    finite sum, term by term, so no finiteness of the data is needed;
  * `edgeMlp`: per block of 4096 pairs, `max (max (X · W₁ + b) 0 · W₂) 0` with the bias row `b` repeated down
    the rows, is the block of the whole-array expression; the bias row is the bias vector laid out as 1 × 64
    (`biasRow`).

  The functions are spelt with the reference's own dimension records, so that the reference's run meets
  `netOut` by unfolding.
-/
import proofs.«158018_j11269994185511_1_alg».proof.Proof.Gen.ReferenceIdeal
import Idealize.ShloMosaic.PureOps.Ideal

noncomputable section

namespace Cert.Bridge

open Idealize.ShloMosaic Cert.ReferenceIdeal Cert.ReferenceIdeal.Facts₀ Cert.ReferenceIdeal.Facts

variable {F : FTy → Type} [FloatOps F]

/-- Node features (20000 × 512) times the first-layer weights (512 × 800). -/
def proj1 (A : (⟨S20000x512, .f32⟩ : BufTy).Contents (Elt F)) (B : (⟨S512x800, .f32⟩ : BufTy).Contents (Elt F)) : (⟨S20000x800, .f32⟩ : BufTy).Contents (Elt F) :=
  Host.dotGeneral dot_S20000x512_S512x800_S20000x800_1_0_0_1_n_n none A B

/-- Hidden activations (20000 × 800) times the second-layer weights (800 × 200). -/
def proj2 (A : (⟨S20000x800, .f32⟩ : BufTy).Contents (Elt F)) (B : (⟨S800x200, .f32⟩ : BufTy).Contents (Elt F)) : (⟨S20000x200, .f32⟩ : BufTy).Contents (Elt F) :=
  Host.dotGeneral dot_S20000x800_S800x200_S20000x200_1_0_0_1_n_n none A B

/-- Sparse aggregation at width 800, clipped at zero: row `rows e` of the result collects `vals e` times row
    `cols e` of `x` over the edges `e` (a negative column index counted from the end), then the maximum with 0. -/
def aggClip800 (rows cols : (⟨S160000, .i32⟩ : BufTy).Contents (Elt F)) (vals : (⟨S160000, .f32⟩ : BufTy).Contents (Elt F)) (x : (⟨S20000x800, .f32⟩ : BufTy).Contents (Elt F)) : (⟨S20000x800, .f32⟩ : BufTy).Contents (Elt F) :=
  maximumf (Host.scatterAdd scatter_S20000x800_S160000x1_S160000x800_1_0_0_1 (broadcastInDim S20000x800 ![] bcast_S_S20000x800 (constant S_ .f32 0x00000000#32)) (broadcastInDim S160000x1 ![0] bcast_S160000_S160000x1_0 rows) (mulf (broadcastInDim S160000x800 ![0, 1] bcast_S160000x1_S160000x800_0_1 (broadcastInDim S160000x1 ![0] bcast_S160000_S160000x1_0 vals)) (Host.gather gather_S20000x800_S160000x1_S160000x800_1_0_n_n_0_1_1800 x (broadcastInDim S160000x1 ![0] bcast_S160000_S160000x1_0 (select (cmpi .slt cols (broadcastInDim S160000 ![] bcast_S_S160000 (constantI S_ 32 0#32))) (addi cols (broadcastInDim S160000 ![] bcast_S_S160000 (constantI S_ 32 20000#32))) cols))))) (broadcastInDim S20000x800 ![] bcast_S_S20000x800 (constant S_ .f32 0x00000000#32))

/-- The same aggregation and clipping at width 200. -/
def aggClip200 (rows cols : (⟨S160000, .i32⟩ : BufTy).Contents (Elt F)) (vals : (⟨S160000, .f32⟩ : BufTy).Contents (Elt F)) (x : (⟨S20000x200, .f32⟩ : BufTy).Contents (Elt F)) : (⟨S20000x200, .f32⟩ : BufTy).Contents (Elt F) :=
  maximumf (Host.scatterAdd scatter_S20000x200_S160000x1_S160000x200_1_0_0_1 (broadcastInDim S20000x200 ![] bcast_S_S20000x200 (constant S_ .f32 0x00000000#32)) (broadcastInDim S160000x1 ![0] bcast_S160000_S160000x1_0 rows) (mulf (broadcastInDim S160000x200 ![0, 1] bcast_S160000x1_S160000x200_0_1 (broadcastInDim S160000x1 ![0] bcast_S160000_S160000x1_0 vals)) (Host.gather gather_S20000x200_S160000x1_S160000x200_1_0_n_n_0_1_1200 x (broadcastInDim S160000x1 ![0] bcast_S160000_S160000x1_0 (select (cmpi .slt cols (broadcastInDim S160000 ![] bcast_S_S160000 (constantI S_ 32 0#32))) (addi cols (broadcastInDim S160000 ![] bcast_S_S160000 (constantI S_ 32 20000#32))) cols))))) (broadcastInDim S20000x200 ![] bcast_S_S20000x200 (constant S_ .f32 0x00000000#32))

/-- The joined pair features: the half-and-half average of the two towers' embeddings, its rows named by the
    first and by the second entry of each training pair side by side (131072 × 400). -/
def pairFeatures (h1 h2 : (⟨S20000x200, .f32⟩ : BufTy).Contents (Elt F)) (ts : (⟨S131072x2, .i32⟩ : BufTy).Contents (Elt F)) : (⟨S131072x400, .f32⟩ : BufTy).Contents (Elt F) :=
  concatenate S131072x400 1 [⟨S131072x200, (Host.gather gather_S20000x200_S131072x1_S131072x200_1_0_n_n_0_1_1200 (addf (mulf (broadcastInDim S20000x200 ![] bcast_S_S20000x200 (constant S_ .f32 0x3F000000#32)) h1) (mulf (broadcastInDim S20000x200 ![] bcast_S_S20000x200 (constant S_ .f32 0x3F000000#32)) h2)) (broadcastInDim S131072x1 ![0] bcast_S131072_S131072x1_0 (select (cmpi .slt (shapeCast _ (extractStridedSlice S131072x1 ![0, 0] ts slices_S131072x2_S131072x1_0_0) shapeCasts_S131072x1_S131072) (broadcastInDim S131072 ![] bcast_S_S131072 (constantI S_ 32 0#32))) (addi (shapeCast _ (extractStridedSlice S131072x1 ![0, 0] ts slices_S131072x2_S131072x1_0_0) shapeCasts_S131072x1_S131072) (broadcastInDim S131072 ![] bcast_S_S131072 (constantI S_ 32 20000#32))) (shapeCast _ (extractStridedSlice S131072x1 ![0, 0] ts slices_S131072x2_S131072x1_0_0) shapeCasts_S131072x1_S131072))))⟩, ⟨S131072x200, (Host.gather gather_S20000x200_S131072x1_S131072x200_1_0_n_n_0_1_1200 (addf (mulf (broadcastInDim S20000x200 ![] bcast_S_S20000x200 (constant S_ .f32 0x3F000000#32)) h1) (mulf (broadcastInDim S20000x200 ![] bcast_S_S20000x200 (constant S_ .f32 0x3F000000#32)) h2)) (broadcastInDim S131072x1 ![0] bcast_S131072_S131072x1_0 (select (cmpi .slt (shapeCast _ (extractStridedSlice S131072x1 ![0, 1] ts slices_S131072x2_S131072x1_0_1) shapeCasts_S131072x1_S131072) (broadcastInDim S131072 ![] bcast_S_S131072 (constantI S_ 32 0#32))) (addi (shapeCast _ (extractStridedSlice S131072x1 ![0, 1] ts slices_S131072x2_S131072x1_0_1) shapeCasts_S131072x1_S131072) (broadcastInDim S131072 ![] bcast_S_S131072 (constantI S_ 32 20000#32))) (shapeCast _ (extractStridedSlice S131072x1 ![0, 1] ts slices_S131072x2_S131072x1_0_1) shapeCasts_S131072x1_S131072))))⟩] concatenates_S131072x200_S131072x200_S131072x400_d1

/-- The bias vector laid out as a 1 × 64 row. -/
def biasRow (b : (⟨S64, .f32⟩ : BufTy).Contents (Elt F)) : (⟨S1x64, .f32⟩ : BufTy).Contents (Elt F) :=
  broadcastInDim S1x64 ![1] bcast_S64_S1x64_1 b

/-- The edge predictor on the joined pair features `X` (131072 × 400): `max (max (X · W₁ + b) 0 · W₂) 0`, the
    bias given as a 1 × 64 row repeated down the rows. -/
def edgeMlp (X : (⟨S131072x400, .f32⟩ : BufTy).Contents (Elt F)) (W1 : (⟨S400x64, .f32⟩ : BufTy).Contents (Elt F)) (b : (⟨S1x64, .f32⟩ : BufTy).Contents (Elt F)) (W2 : (⟨S64x1, .f32⟩ : BufTy).Contents (Elt F)) : (⟨S131072x1, .f32⟩ : BufTy).Contents (Elt F) :=
  maximumf (Host.dotGeneral dot_S131072x64_S64x1_S131072x1_1_0_0_1_n_n none (maximumf (addf (Host.dotGeneral dot_S131072x400_S400x64_S131072x64_1_0_0_1_n_n none X W1) (broadcastInDim S131072x64 ![0, 1] bcast_S1x64_S131072x64_0_1 b)) (broadcastInDim S131072x64 ![] bcast_S_S131072x64 (constant S_ .f32 0x00000000#32))) W2) (broadcastInDim S131072x1 ![] bcast_S_S131072x1 (constant S_ .f32 0x00000000#32))

/-- One tower: product, aggregation and clipping, twice. -/
def tower (feat : (⟨S20000x512, .f32⟩ : BufTy).Contents (Elt F)) (w1 : (⟨S512x800, .f32⟩ : BufTy).Contents (Elt F)) (w2 : (⟨S800x200, .f32⟩ : BufTy).Contents (Elt F))
    (rows cols : (⟨S160000, .i32⟩ : BufTy).Contents (Elt F)) (vals : (⟨S160000, .f32⟩ : BufTy).Contents (Elt F)) : (⟨S20000x200, .f32⟩ : BufTy).Contents (Elt F) :=
  aggClip200 rows cols vals (proj2 (aggClip800 rows cols vals (proj1 feat w1)) w2)

/-- The whole network: the predictor on the pair features of the two towers. -/
def netOut (rna atac : (⟨S20000x512, .f32⟩ : BufTy).Contents (Elt F)) (rows cols : (⟨S160000, .i32⟩ : BufTy).Contents (Elt F)) (vals : (⟨S160000, .f32⟩ : BufTy).Contents (Elt F))
    (ts : (⟨S131072x2, .i32⟩ : BufTy).Contents (Elt F)) (wr1 : (⟨S512x800, .f32⟩ : BufTy).Contents (Elt F)) (wr2 : (⟨S800x200, .f32⟩ : BufTy).Contents (Elt F))
    (wa1 : (⟨S512x800, .f32⟩ : BufTy).Contents (Elt F)) (wa2 : (⟨S800x200, .f32⟩ : BufTy).Contents (Elt F)) (mw1 : (⟨S400x64, .f32⟩ : BufTy).Contents (Elt F)) (mb : (⟨S64, .f32⟩ : BufTy).Contents (Elt F))
    (mw2 : (⟨S64x1, .f32⟩ : BufTy).Contents (Elt F)) : (⟨S131072x1, .f32⟩ : BufTy).Contents (Elt F) :=
  edgeMlp (pairFeatures (tower rna wr1 wr2 rows cols vals) (tower atac wa1 wa2 rows cols vals) ts) mw1 (biasRow mb) mw2

end Cert.Bridge

end
-- ==== Proof.KernelRun.lean ====
/-
  The idealized kernel's run with its result NAMED.

  The program is five launches among stretches of host operations.  Running it segment by segment, the buffers'
  contents at each boundary are a fold from the launch memory: a host stretch applies its operations, a launch
  replaces its output array by what its grid points wrote back.  Every weakly fair execution terminates in a
  state whose unscoped buffers hold the last fold `W14`; in particular the result buffer holds `W14` read at
  it, and each argument holds what it held at launch.  What `W14` holds at the result, as a function of the
  arguments, is computed in the modules that follow.
-/
import proofs.«158018_j11269994185511_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting,
    with the result buffer at the last boundary's contents and every argument as launched. -/
theorem run_named : θ_run defs (onTc (τ := τ) (main (F := F))) ⟨m, fun _ => 0, ρ⟩ (fun r => ∀ c : Dev nD,
      r.2.mem ((c.tc : Thread nD τ).loc main_v85) = W14 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
    Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v85 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩)

end Cert.KernelIdeal.ValueRun

end
-- ==== Proof.TowerProducts.lean ====
/-
  The four dense products of the two towers, each computed 2000 rows at a time, are the whole products.

  Each of the four launched products multiplies a 20000-row matrix `A` by a weight matrix `B`: grid point `t` (of ten)
  loads rows `2000 t … 2000 t + 1999` of `A` and all of `B`, multiplies them into a zero accumulator and writes the
  result to the same rows of the output.  Over the extended reals, where narrowing the operands to a shorter float
  format changes nothing, entry `(p, q)` of the block product is `∑ k, A (2000 t + p, k) * B (k, q)`, which is entry
  `(2000 t + p, q)` of the whole product `∑ k, A (r, k) * B (k, j)` — the same finite sum, term by term, so nothing about
  the data is assumed.  The ten blocks cover every row (row `r` is in block `r / 2000`), so after the ten points the
  output array is the whole product.

  The two first-layer products (20000x512 by 512x800) share their per-block mathematics, as do the two second-layer
  products (20000x800 by 800x200); each is proved once over arbitrary blocks and then read at the blocks the grid
  point loads.
-/
import proofs.«158018_j11269994185511_1_alg».proof.Proof.Spec
import proofs.«158018_j11269994185511_1_alg».proof.Proof.Gen.KernelIdeal.Frame
import Idealize.ShloMosaic.Lib.Pipeline.Value
import Idealize.ShloMosaic.Lib.ValueIdx
import Idealize.ShloMosaic.PureOps.Ideal.Laws

noncomputable section
namespace Cert.KernelIdeal.TowerProducts
open Idealize.ShloMosaic Idealize.ShloMosaic.TcCoe Idealize.SL.Sem Cert.KernelIdeal Cert.KernelIdeal.Gen
open Idealize.ShloMosaic.Pipeline (Dat)

theorem origin2 : (![0, 0] : Fin 2 → Nat) = fun _ => 0 := funext fun a => by fin_cases a <;> rfl

/-! ## The first-layer product: 20000x512 by 512x800, 2000 rows at a time

Both the block product and the whole product, read at an output position, are the same sum over the 512 inner
positions; first the operands' positions the two sets of dimension numbers name. -/

theorem blk512_l0 (i : S2000x800.Idx) (z : dot_S2000x512_S512x800_S2000x800_1_0_0_1_n_n.contr.Idx) : (dot_S2000x512_S512x800_S2000x800_1_0_0_1_n_n.lhsIdx i z 0).val = (i 0).val := by
  unfold DotDims.lhsIdx
  rw [dif_neg (show ¬(0 : Fin S2000x512.rank) ∈ dot_S2000x512_S512x800_S2000x800_1_0_0_1_n_n.lhsBatch by decide), dif_pos (show (0 : Fin S2000x512.rank) ∈ dot_S2000x512_S512x800_S2000x800_1_0_0_1_n_n.lhsNonContracting by decide)]
  rfl
theorem blk512_l1 (i : S2000x800.Idx) (z : dot_S2000x512_S512x800_S2000x800_1_0_0_1_n_n.contr.Idx) : (dot_S2000x512_S512x800_S2000x800_1_0_0_1_n_n.lhsIdx i z 1).val = (z ⟨0, by decide⟩).val :=
  dot_S2000x512_S512x800_S2000x800_1_0_0_1_n_n.lhsIdx_val_of_single rfl i z
theorem blk512_r0 (i : S2000x800.Idx) (z : dot_S2000x512_S512x800_S2000x800_1_0_0_1_n_n.contr.Idx) : (dot_S2000x512_S512x800_S2000x800_1_0_0_1_n_n.rhsIdx i z 0).val = (z ⟨0, by decide⟩).val :=
  dot_S2000x512_S512x800_S2000x800_1_0_0_1_n_n.rhsIdx_val_of_single rfl i z
theorem blk512_r1 (i : S2000x800.Idx) (z : dot_S2000x512_S512x800_S2000x800_1_0_0_1_n_n.contr.Idx) : (dot_S2000x512_S512x800_S2000x800_1_0_0_1_n_n.rhsIdx i z 1).val = (i 1).val := by
  unfold DotDims.rhsIdx
  rw [dif_neg (show ¬(1 : Fin S512x800.rank) ∈ dot_S2000x512_S512x800_S2000x800_1_0_0_1_n_n.rhsBatch by decide), dif_pos (show (1 : Fin S512x800.rank) ∈ dot_S2000x512_S512x800_S2000x800_1_0_0_1_n_n.rhsNonContracting by decide)]
  rfl
/-- At output (p, q) and inner position k the left operand is read at (p, k) -/
theorem blk512_el (p : Fin 2000) (q : Fin 800) (k : Fin 512) :
    dot_S2000x512_S512x800_S2000x800_1_0_0_1_n_n.lhsIdx (ValueIdx.ix2 p q) ((ValueIdx.contrEquiv1 dot_S2000x512_S512x800_S2000x800_1_0_0_1_n_n 512 rfl rfl).symm k) = ValueIdx.ix2 p k :=
  funext fun a => Fin.ext (by
    have hk := ValueIdx.contrEquiv1_symm_val dot_S2000x512_S512x800_S2000x800_1_0_0_1_n_n 512 rfl rfl k
    match a with
    | ⟨0, _⟩ => exact blk512_l0 _ _
    | ⟨1, _⟩ => exact (blk512_l1 _ _).trans hk)
/-- and the right operand at (k, q). -/
theorem blk512_er (p : Fin 2000) (q : Fin 800) (k : Fin 512) :
    dot_S2000x512_S512x800_S2000x800_1_0_0_1_n_n.rhsIdx (ValueIdx.ix2 p q) ((ValueIdx.contrEquiv1 dot_S2000x512_S512x800_S2000x800_1_0_0_1_n_n 512 rfl rfl).symm k) = ValueIdx.ix2 k q :=
  funext fun a => Fin.ext (by
    have hk := ValueIdx.contrEquiv1_symm_val dot_S2000x512_S512x800_S2000x800_1_0_0_1_n_n 512 rfl rfl k
    match a with
    | ⟨0, _⟩ => exact (blk512_r0 _ _).trans hk
    | ⟨1, _⟩ => exact blk512_r1 _ _)

theorem all512_l0 (i : Cert.ReferenceIdeal.S20000x800.Idx) (z : Cert.ReferenceIdeal.dot_S20000x512_S512x800_S20000x800_1_0_0_1_n_n.contr.Idx) : (Cert.ReferenceIdeal.dot_S20000x512_S512x800_S20000x800_1_0_0_1_n_n.lhsIdx i z 0).val = (i 0).val := by
  unfold DotDims.lhsIdx
  rw [dif_neg (show ¬(0 : Fin Cert.ReferenceIdeal.S20000x512.rank) ∈ Cert.ReferenceIdeal.dot_S20000x512_S512x800_S20000x800_1_0_0_1_n_n.lhsBatch by decide), dif_pos (show (0 : Fin Cert.ReferenceIdeal.S20000x512.rank) ∈ Cert.ReferenceIdeal.dot_S20000x512_S512x800_S20000x800_1_0_0_1_n_n.lhsNonContracting by decide)]
  rfl
theorem all512_l1 (i : Cert.ReferenceIdeal.S20000x800.Idx) (z : Cert.ReferenceIdeal.dot_S20000x512_S512x800_S20000x800_1_0_0_1_n_n.contr.Idx) : (Cert.ReferenceIdeal.dot_S20000x512_S512x800_S20000x800_1_0_0_1_n_n.lhsIdx i z 1).val = (z ⟨0, by decide⟩).val :=
  Cert.ReferenceIdeal.dot_S20000x512_S512x800_S20000x800_1_0_0_1_n_n.lhsIdx_val_of_single rfl i z
theorem all512_r0 (i : Cert.ReferenceIdeal.S20000x800.Idx) (z : Cert.ReferenceIdeal.dot_S20000x512_S512x800_S20000x800_1_0_0_1_n_n.contr.Idx) : (Cert.ReferenceIdeal.dot_S20000x512_S512x800_S20000x800_1_0_0_1_n_n.rhsIdx i z 0).val = (z ⟨0, by decide⟩).val :=
  Cert.ReferenceIdeal.dot_S20000x512_S512x800_S20000x800_1_0_0_1_n_n.rhsIdx_val_of_single rfl i z
theorem all512_r1 (i : Cert.ReferenceIdeal.S20000x800.Idx) (z : Cert.ReferenceIdeal.dot_S20000x512_S512x800_S20000x800_1_0_0_1_n_n.contr.Idx) : (Cert.ReferenceIdeal.dot_S20000x512_S512x800_S20000x800_1_0_0_1_n_n.rhsIdx i z 1).val = (i 1).val := by
  unfold DotDims.rhsIdx
  rw [dif_neg (show ¬(1 : Fin Cert.ReferenceIdeal.S512x800.rank) ∈ Cert.ReferenceIdeal.dot_S20000x512_S512x800_S20000x800_1_0_0_1_n_n.rhsBatch by decide), dif_pos (show (1 : Fin Cert.ReferenceIdeal.S512x800.rank) ∈ Cert.ReferenceIdeal.dot_S20000x512_S512x800_S20000x800_1_0_0_1_n_n.rhsNonContracting by decide)]
  rfl
/-- At output (p, q) and inner position k the left operand is read at (p, k) -/
theorem all512_el (p : Fin 20000) (q : Fin 800) (k : Fin 512) :
    Cert.ReferenceIdeal.dot_S20000x512_S512x800_S20000x800_1_0_0_1_n_n.lhsIdx (ValueIdx.ix2 p q) ((ValueIdx.contrEquiv1 Cert.ReferenceIdeal.dot_S20000x512_S512x800_S20000x800_1_0_0_1_n_n 512 rfl rfl).symm k) = ValueIdx.ix2 p k :=
  funext fun a => Fin.ext (by
    have hk := ValueIdx.contrEquiv1_symm_val Cert.ReferenceIdeal.dot_S20000x512_S512x800_S20000x800_1_0_0_1_n_n 512 rfl rfl k
    match a with
    | ⟨0, _⟩ => exact all512_l0 _ _
    | ⟨1, _⟩ => exact (all512_l1 _ _).trans hk)
/-- and the right operand at (k, q). -/
theorem all512_er (p : Fin 20000) (q : Fin 800) (k : Fin 512) :
    Cert.ReferenceIdeal.dot_S20000x512_S512x800_S20000x800_1_0_0_1_n_n.rhsIdx (ValueIdx.ix2 p q) ((ValueIdx.contrEquiv1 Cert.ReferenceIdeal.dot_S20000x512_S512x800_S20000x800_1_0_0_1_n_n 512 rfl rfl).symm k) = ValueIdx.ix2 k q :=
  funext fun a => Fin.ext (by
    have hk := ValueIdx.contrEquiv1_symm_val Cert.ReferenceIdeal.dot_S20000x512_S512x800_S20000x800_1_0_0_1_n_n 512 rfl rfl k
    match a with
    | ⟨0, _⟩ => exact (all512_r0 _ _).trans hk
    | ⟨1, _⟩ => exact all512_r1 _ _)

/-- The block product 2000x512 by 512x800 into a zero accumulator, at (p, q): the sum over the 512 inner
    positions of the products of row p of the left block and column q of the right one. -/
theorem mm512_apply (x0 : FVec Ideal S2000x512 .bf16) (x1 : FVec Ideal S512x800 .bf16) (p : Fin 2000) (q : Fin 800) :
    matmul (F := Ideal) dot_S2000x512_S512x800_S2000x800_1_0_0_1_n_n none x0 x1 (constant (F := Ideal) S2000x800 .f32 0x00000000#32) (ValueIdx.ix2 p q)
      = ∑ k : Fin 512, x0 (ValueIdx.ix2 p k) * x1 (ValueIdx.ix2 k q) := by
  simp only [matmul]
  rw [Ideal.matmul_constant_zero_apply, ← Equiv.sum_comp (ValueIdx.contrEquiv1 dot_S2000x512_S512x800_S2000x800_1_0_0_1_n_n 512 rfl rfl).symm]
  refine Finset.sum_congr rfl fun k _ => ?_
  rw [blk512_el, blk512_er]

/-- The whole product 20000x512 by 512x800 at (r, q): the same sum over the 512 inner positions. -/
theorem proj1_apply (A : (⟨Cert.ReferenceIdeal.S20000x512, .f32⟩ : BufTy).Contents (Elt Ideal)) (B : (⟨Cert.ReferenceIdeal.S512x800, .f32⟩ : BufTy).Contents (Elt Ideal)) (r : Fin 20000) (q : Fin 800) :
    Cert.Bridge.proj1 (F := Ideal) A B (ValueIdx.ix2 r q) = ∑ k : Fin 512, A (ValueIdx.ix2 r k) * B (ValueIdx.ix2 k q) := by
  unfold Cert.Bridge.proj1
  simp only [Host.dotGeneral]
  rw [Ideal.dotGeneral_apply, ← Equiv.sum_comp (ValueIdx.contrEquiv1 Cert.ReferenceIdeal.dot_S20000x512_S512x800_S20000x800_1_0_0_1_n_n 512 rfl rfl).symm]
  refine Finset.sum_congr rfl fun k _ => ?_
  rw [all512_el, all512_er]

/-- A block product whose left block holds the rows `row p` of `A` and whose right block is all of `B` is the
    whole product `A · B` at those rows: both are the same sum of the same products. -/
theorem block512 (x0 : FVec Ideal S2000x512 .bf16) (x1 : FVec Ideal S512x800 .bf16)
    (A : (⟨Cert.ReferenceIdeal.S20000x512, .f32⟩ : BufTy).Contents (Elt Ideal)) (B : (⟨Cert.ReferenceIdeal.S512x800, .f32⟩ : BufTy).Contents (Elt Ideal))
    (row : Fin 2000 → Fin 20000)
    (h0 : ∀ (p : Fin 2000) (k : Fin 512), x0 (ValueIdx.ix2 p k) = A (ValueIdx.ix2 (row p) k))
    (h1 : ∀ (k : Fin 512) (q : Fin 800), x1 (ValueIdx.ix2 k q) = B (ValueIdx.ix2 k q))
    (p : Fin 2000) (q : Fin 800) :
    matmul (F := Ideal) dot_S2000x512_S512x800_S2000x800_1_0_0_1_n_n none x0 x1 (constant (F := Ideal) S2000x800 .f32 0x00000000#32) (ValueIdx.ix2 p q)
      = Cert.Bridge.proj1 (F := Ideal) A B (ValueIdx.ix2 (row p) q) := by
  rw [mm512_apply, proj1_apply]
  exact Finset.sum_congr rfl fun k _ => by rw [h0, h1]

/-! ## The second-layer product: 20000x800 by 800x200, 2000 rows at a time

Both the block product and the whole product, read at an output position, are the same sum over the 800 inner
positions; first the operands' positions the two sets of dimension numbers name. -/

theorem blk800_l0 (i : S2000x200.Idx) (z : dot_S2000x800_S800x200_S2000x200_1_0_0_1_n_n.contr.Idx) : (dot_S2000x800_S800x200_S2000x200_1_0_0_1_n_n.lhsIdx i z 0).val = (i 0).val := by
  unfold DotDims.lhsIdx
  rw [dif_neg (show ¬(0 : Fin S2000x800.rank) ∈ dot_S2000x800_S800x200_S2000x200_1_0_0_1_n_n.lhsBatch by decide), dif_pos (show (0 : Fin S2000x800.rank) ∈ dot_S2000x800_S800x200_S2000x200_1_0_0_1_n_n.lhsNonContracting by decide)]
  rfl
theorem blk800_l1 (i : S2000x200.Idx) (z : dot_S2000x800_S800x200_S2000x200_1_0_0_1_n_n.contr.Idx) : (dot_S2000x800_S800x200_S2000x200_1_0_0_1_n_n.lhsIdx i z 1).val = (z ⟨0, by decide⟩).val :=
  dot_S2000x800_S800x200_S2000x200_1_0_0_1_n_n.lhsIdx_val_of_single rfl i z
theorem blk800_r0 (i : S2000x200.Idx) (z : dot_S2000x800_S800x200_S2000x200_1_0_0_1_n_n.contr.Idx) : (dot_S2000x800_S800x200_S2000x200_1_0_0_1_n_n.rhsIdx i z 0).val = (z ⟨0, by decide⟩).val :=
  dot_S2000x800_S800x200_S2000x200_1_0_0_1_n_n.rhsIdx_val_of_single rfl i z
theorem blk800_r1 (i : S2000x200.Idx) (z : dot_S2000x800_S800x200_S2000x200_1_0_0_1_n_n.contr.Idx) : (dot_S2000x800_S800x200_S2000x200_1_0_0_1_n_n.rhsIdx i z 1).val = (i 1).val := by
  unfold DotDims.rhsIdx
  rw [dif_neg (show ¬(1 : Fin S800x200.rank) ∈ dot_S2000x800_S800x200_S2000x200_1_0_0_1_n_n.rhsBatch by decide), dif_pos (show (1 : Fin S800x200.rank) ∈ dot_S2000x800_S800x200_S2000x200_1_0_0_1_n_n.rhsNonContracting by decide)]
  rfl
/-- At output (p, q) and inner position k the left operand is read at (p, k) -/
theorem blk800_el (p : Fin 2000) (q : Fin 200) (k : Fin 800) :
    dot_S2000x800_S800x200_S2000x200_1_0_0_1_n_n.lhsIdx (ValueIdx.ix2 p q) ((ValueIdx.contrEquiv1 dot_S2000x800_S800x200_S2000x200_1_0_0_1_n_n 800 rfl rfl).symm k) = ValueIdx.ix2 p k :=
  funext fun a => Fin.ext (by
    have hk := ValueIdx.contrEquiv1_symm_val dot_S2000x800_S800x200_S2000x200_1_0_0_1_n_n 800 rfl rfl k
    match a with
    | ⟨0, _⟩ => exact blk800_l0 _ _
    | ⟨1, _⟩ => exact (blk800_l1 _ _).trans hk)
/-- and the right operand at (k, q). -/
theorem blk800_er (p : Fin 2000) (q : Fin 200) (k : Fin 800) :
    dot_S2000x800_S800x200_S2000x200_1_0_0_1_n_n.rhsIdx (ValueIdx.ix2 p q) ((ValueIdx.contrEquiv1 dot_S2000x800_S800x200_S2000x200_1_0_0_1_n_n 800 rfl rfl).symm k) = ValueIdx.ix2 k q :=
  funext fun a => Fin.ext (by
    have hk := ValueIdx.contrEquiv1_symm_val dot_S2000x800_S800x200_S2000x200_1_0_0_1_n_n 800 rfl rfl k
    match a with
    | ⟨0, _⟩ => exact (blk800_r0 _ _).trans hk
    | ⟨1, _⟩ => exact blk800_r1 _ _)

theorem all800_l0 (i : Cert.ReferenceIdeal.S20000x200.Idx) (z : Cert.ReferenceIdeal.dot_S20000x800_S800x200_S20000x200_1_0_0_1_n_n.contr.Idx) : (Cert.ReferenceIdeal.dot_S20000x800_S800x200_S20000x200_1_0_0_1_n_n.lhsIdx i z 0).val = (i 0).val := by
  unfold DotDims.lhsIdx
  rw [dif_neg (show ¬(0 : Fin Cert.ReferenceIdeal.S20000x800.rank) ∈ Cert.ReferenceIdeal.dot_S20000x800_S800x200_S20000x200_1_0_0_1_n_n.lhsBatch by decide), dif_pos (show (0 : Fin Cert.ReferenceIdeal.S20000x800.rank) ∈ Cert.ReferenceIdeal.dot_S20000x800_S800x200_S20000x200_1_0_0_1_n_n.lhsNonContracting by decide)]
  rfl
theorem all800_l1 (i : Cert.ReferenceIdeal.S20000x200.Idx) (z : Cert.ReferenceIdeal.dot_S20000x800_S800x200_S20000x200_1_0_0_1_n_n.contr.Idx) : (Cert.ReferenceIdeal.dot_S20000x800_S800x200_S20000x200_1_0_0_1_n_n.lhsIdx i z 1).val = (z ⟨0, by decide⟩).val :=
  Cert.ReferenceIdeal.dot_S20000x800_S800x200_S20000x200_1_0_0_1_n_n.lhsIdx_val_of_single rfl i z
theorem all800_r0 (i : Cert.ReferenceIdeal.S20000x200.Idx) (z : Cert.ReferenceIdeal.dot_S20000x800_S800x200_S20000x200_1_0_0_1_n_n.contr.Idx) : (Cert.ReferenceIdeal.dot_S20000x800_S800x200_S20000x200_1_0_0_1_n_n.rhsIdx i z 0).val = (z ⟨0, by decide⟩).val :=
  Cert.ReferenceIdeal.dot_S20000x800_S800x200_S20000x200_1_0_0_1_n_n.rhsIdx_val_of_single rfl i z
theorem all800_r1 (i : Cert.ReferenceIdeal.S20000x200.Idx) (z : Cert.ReferenceIdeal.dot_S20000x800_S800x200_S20000x200_1_0_0_1_n_n.contr.Idx) : (Cert.ReferenceIdeal.dot_S20000x800_S800x200_S20000x200_1_0_0_1_n_n.rhsIdx i z 1).val = (i 1).val := by
  unfold DotDims.rhsIdx
  rw [dif_neg (show ¬(1 : Fin Cert.ReferenceIdeal.S800x200.rank) ∈ Cert.ReferenceIdeal.dot_S20000x800_S800x200_S20000x200_1_0_0_1_n_n.rhsBatch by decide), dif_pos (show (1 : Fin Cert.ReferenceIdeal.S800x200.rank) ∈ Cert.ReferenceIdeal.dot_S20000x800_S800x200_S20000x200_1_0_0_1_n_n.rhsNonContracting by decide)]
  rfl
/-- At output (p, q) and inner position k the left operand is read at (p, k) -/
theorem all800_el (p : Fin 20000) (q : Fin 200) (k : Fin 800) :
    Cert.ReferenceIdeal.dot_S20000x800_S800x200_S20000x200_1_0_0_1_n_n.lhsIdx (ValueIdx.ix2 p q) ((ValueIdx.contrEquiv1 Cert.ReferenceIdeal.dot_S20000x800_S800x200_S20000x200_1_0_0_1_n_n 800 rfl rfl).symm k) = ValueIdx.ix2 p k :=
  funext fun a => Fin.ext (by
    have hk := ValueIdx.contrEquiv1_symm_val Cert.ReferenceIdeal.dot_S20000x800_S800x200_S20000x200_1_0_0_1_n_n 800 rfl rfl k
    match a with
    | ⟨0, _⟩ => exact all800_l0 _ _
    | ⟨1, _⟩ => exact (all800_l1 _ _).trans hk)
/-- and the right operand at (k, q). -/
theorem all800_er (p : Fin 20000) (q : Fin 200) (k : Fin 800) :
    Cert.ReferenceIdeal.dot_S20000x800_S800x200_S20000x200_1_0_0_1_n_n.rhsIdx (ValueIdx.ix2 p q) ((ValueIdx.contrEquiv1 Cert.ReferenceIdeal.dot_S20000x800_S800x200_S20000x200_1_0_0_1_n_n 800 rfl rfl).symm k) = ValueIdx.ix2 k q :=
  funext fun a => Fin.ext (by
    have hk := ValueIdx.contrEquiv1_symm_val Cert.ReferenceIdeal.dot_S20000x800_S800x200_S20000x200_1_0_0_1_n_n 800 rfl rfl k
    match a with
    | ⟨0, _⟩ => exact (all800_r0 _ _).trans hk
    | ⟨1, _⟩ => exact all800_r1 _ _)

/-- The block product 2000x800 by 800x200 into a zero accumulator, at (p, q): the sum over the 800 inner
    positions of the products of row p of the left block and column q of the right one. -/
theorem mm800_apply (x0 : FVec Ideal S2000x800 .bf16) (x1 : FVec Ideal S800x200 .bf16) (p : Fin 2000) (q : Fin 200) :
    matmul (F := Ideal) dot_S2000x800_S800x200_S2000x200_1_0_0_1_n_n none x0 x1 (constant (F := Ideal) S2000x200 .f32 0x00000000#32) (ValueIdx.ix2 p q)
      = ∑ k : Fin 800, x0 (ValueIdx.ix2 p k) * x1 (ValueIdx.ix2 k q) := by
  simp only [matmul]
  rw [Ideal.matmul_constant_zero_apply, ← Equiv.sum_comp (ValueIdx.contrEquiv1 dot_S2000x800_S800x200_S2000x200_1_0_0_1_n_n 800 rfl rfl).symm]
  refine Finset.sum_congr rfl fun k _ => ?_
  rw [blk800_el, blk800_er]

/-- The whole product 20000x800 by 800x200 at (r, q): the same sum over the 800 inner positions. -/
theorem proj2_apply (A : (⟨Cert.ReferenceIdeal.S20000x800, .f32⟩ : BufTy).Contents (Elt Ideal)) (B : (⟨Cert.ReferenceIdeal.S800x200, .f32⟩ : BufTy).Contents (Elt Ideal)) (r : Fin 20000) (q : Fin 200) :
    Cert.Bridge.proj2 (F := Ideal) A B (ValueIdx.ix2 r q) = ∑ k : Fin 800, A (ValueIdx.ix2 r k) * B (ValueIdx.ix2 k q) := by
  unfold Cert.Bridge.proj2
  simp only [Host.dotGeneral]
  rw [Ideal.dotGeneral_apply, ← Equiv.sum_comp (ValueIdx.contrEquiv1 Cert.ReferenceIdeal.dot_S20000x800_S800x200_S20000x200_1_0_0_1_n_n 800 rfl rfl).symm]
  refine Finset.sum_congr rfl fun k _ => ?_
  rw [all800_el, all800_er]

/-- A block product whose left block holds the rows `row p` of `A` and whose right block is all of `B` is the
    whole product `A · B` at those rows: both are the same sum of the same products (the left block first re-laid to its own shape, which changes nothing). -/
theorem block800 (x0 : FVec Ideal S2000x800 .f32) (x1 : FVec Ideal S800x200 .bf16)
    (A : (⟨Cert.ReferenceIdeal.S20000x800, .f32⟩ : BufTy).Contents (Elt Ideal)) (B : (⟨Cert.ReferenceIdeal.S800x200, .f32⟩ : BufTy).Contents (Elt Ideal))
    (row : Fin 2000 → Fin 20000)
    (h0 : ∀ (p : Fin 2000) (k : Fin 800), x0 (ValueIdx.ix2 p k) = A (ValueIdx.ix2 (row p) k))
    (h1 : ∀ (k : Fin 800) (q : Fin 200), x1 (ValueIdx.ix2 k q) = B (ValueIdx.ix2 k q))
    (p : Fin 2000) (q : Fin 200) :
    matmul (F := Ideal) dot_S2000x800_S800x200_S2000x200_1_0_0_1_n_n none (truncf (F := Ideal) .bf16 (shapeCast S2000x800 x0 shapeCasts_S2000x800_S2000x800) bitsLt_bf16_f32) x1 (constant (F := Ideal) S2000x200 .f32 0x00000000#32) (ValueIdx.ix2 p q)
      = Cert.Bridge.proj2 (F := Ideal) A B (ValueIdx.ix2 (row p) q) := by
  rw [shapeCast_self]
  refine (mm800_apply x0 x1 p q).trans ?_
  rw [proj2_apply]
  exact Finset.sum_congr rfl fun k _ => by rw [h0, h1]

/-! ## The first tower's first-layer product -/

/-- The block index maps, decided over the ten grid points: point `t` holds block row `t` of the left operand and of
    the output, and the one block of the weight matrix. -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b)) (c : Dev nD)

/-- What point `t` writes back is block `t` of the whole product. -/
theorem flushed0 (t : Fin cfg0.N) :
    (dat0 (F := Ideal) V c).flushed 2 t = ((cfg0.win 2).blk t).view.read (Elt Ideal) (Cert.Bridge.proj1 (F := Ideal) (V c main_arg0) (V c main_arg6)) := by
  show (cfg0.win 2).cut (grid0.coords t) ((dat0 (F := Ideal) V c).after 2 t) = _
  rw [after0_2]
  unfold out0_2
  rw [View.canon_unit_zero origin2]
  simp only [View.ld_unit_zero (S := S2000x512) origin2, View.ld_unit_zero (S := S512x800) origin2]
  obtain ⟨e00, e01, e10, e11, e20, e21⟩ := blocks0 t
  have ht : t.val < 10 := lt_of_lt_of_eq t.isLt N_0
  funext y
  obtain ⟨p, q, rfl⟩ : ∃ (p : Fin 2000) (q : Fin 800), y = ValueIdx.ix2 p q := ⟨y 0, y 1, ValueIdx.eq_ix2 y⟩
  refine (block512 (iblk0 V c 0 t) (iblk0 V c 1 t) (V c main_arg0) (V c main_arg6) (fun p => ⟨t.val * 2000 + p.val, by omega⟩) ?_ ?_ p q).trans ?_
  · intro p k
    show V c main_arg0 (((cfg0.win 0).blk t).view.emb (ValueIdx.ix2 p k)) = V c main_arg0 _
    refine congrArg _ ?_
    funext a; apply Fin.ext
    match a with
    | ⟨0, _⟩ => show win0_0.index t (0 : Fin 2) * 2000 + 1 * p.val = t.val * 2000 + p.val; omega
    | ⟨1, _⟩ => show win0_0.index t (1 : Fin 2) * 512 + 1 * k.val = k.val; omega
  · intro k q
    show V c main_arg6 (((cfg0.win 1).blk t).view.emb (ValueIdx.ix2 k q)) = V c main_arg6 _
    refine congrArg _ ?_
    funext a; apply Fin.ext
    match a with
    | ⟨0, _⟩ => show win0_1.index t (0 : Fin 2) * 512 + 1 * k.val = k.val; omega
    | ⟨1, _⟩ => show win0_1.index t (1 : Fin 2) * 800 + 1 * q.val = q.val; omega
  · show Cert.Bridge.proj1 (F := Ideal) (V c main_arg0) (V c main_arg6) _ = Cert.Bridge.proj1 (F := Ideal) (V c main_arg0) (V c main_arg6) (((cfg0.win 2).blk t).view.emb (ValueIdx.ix2 p q))
    refine congrArg _ ?_
    funext a; apply Fin.ext
    match a with
    | ⟨0, _⟩ => show t.val * 2000 + p.val = win0_2.index t (0 : Fin 2) * 2000 + 1 * p.val; omega
    | ⟨1, _⟩ => show q.val = win0_2.index t (1 : Fin 2) * 800 + 1 * q.val; omega
end

/-- An index of the output array lies in point `t`'s block iff each coordinate lies in the block's range on its axis. -/
theorem mem_blk0 (t : Fin cfg0.N) (i : S20000x800.Idx) :
    i ∈ ((cfg0.win 2).blk t).view.set ↔ ∀ a : Fin 2, win0_2.index t a * S2000x800.size a ≤ (i a).val ∧ (i a).val < win0_2.index t a * S2000x800.size a + S2000x800.size a := by
  show i ∈ ((View.whole main_v0).slice (win0_2.rect t)).set ↔ _
  rw [View.set_slice_whole, Rect.mem_set_unit]
  exact Iff.rfl

/-- Every row `r` of the output lies in the block of point `r / 2000`. -/
theorem cover0 (i : S20000x800.Idx) : ∃ t : Fin cfg0.N, (cfg0.win 2).flush t = true ∧ i ∈ ((cfg0.win 2).blk t).view.set := by
  have hi0 : (i 0).val < 20000 := (i 0).isLt
  have hi1 : (i 1).val < 800 := (i 1).isLt
  obtain ⟨t, ht⟩ : ∃ t : Fin cfg0.N, t.val = (i 0).val / 2000 := ⟨⟨(i 0).val / 2000, lt_of_lt_of_eq (by omega) N_0.symm⟩, rfl⟩
  obtain ⟨-, -, -, -, e20, e21⟩ := blocks0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 800 ≤ (i 1).val ∧ (i 1).val < win0_2.index t (1 : Fin 2) * 800 + 800; omega

section
variable (V : (c : Dev nD) → (b : Ref sig .tc) → Buf (Elt Ideal) ((c : Thread nD τ).loc b)) (c : Dev nD)

/-- After the ten points the output array holds the whole product. -/
theorem final0 : (dat0 (F := Ideal) V c).arrAt 2 cfg0.N = Cert.Bridge.proj1 (F := Ideal) (V c main_arg0) (V c main_arg6) :=
  (dat0 (F := Ideal) V c).arrAt_eq_of_cover 2 _ (fun t _ => flushed0 V c t) cover0
end

/-! ## The first tower's second-layer product -/

/-- The block index maps, decided over the ten grid points: point `t` holds block row `t` of the left operand and of
    the output, and the one block of the weight matrix. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b)) (c : Dev nD)

/-- What point `t` writes back is block `t` of the whole product. -/
theorem flushed1 (t : Fin cfg1.N) :
    (dat1 (F := Ideal) V c).flushed 2 t = ((cfg1.win 2).blk t).view.read (Elt Ideal) (Cert.Bridge.proj2 (F := Ideal) (V c main_v14) (V c main_arg7)) := by
  show (cfg1.win 2).cut (grid1.coords t) ((dat1 (F := Ideal) V c).after 2 t) = _
  rw [after1_2]
  unfold out1_2
  rw [View.canon_unit_zero origin2]
  simp only [View.ld_unit_zero (S := S2000x800) origin2, View.ld_unit_zero (S := S800x200) origin2]
  obtain ⟨e00, e01, e10, e11, e20, e21⟩ := blocks1 t
  have ht : t.val < 10 := lt_of_lt_of_eq t.isLt N_1
  funext y
  obtain ⟨p, q, rfl⟩ : ∃ (p : Fin 2000) (q : Fin 200), y = ValueIdx.ix2 p q := ⟨y 0, y 1, ValueIdx.eq_ix2 y⟩
  refine (block800 (iblk1 V c 0 t) (iblk1 V c 1 t) (V c main_v14) (V c main_arg7) (fun p => ⟨t.val * 2000 + p.val, by omega⟩) ?_ ?_ p q).trans ?_
  · intro p k
    show V c main_v14 (((cfg1.win 0).blk t).view.emb (ValueIdx.ix2 p k)) = V c main_v14 _
    refine congrArg _ ?_
    funext a; apply Fin.ext
    match a with
    | ⟨0, _⟩ => show win1_0.index t (0 : Fin 2) * 2000 + 1 * p.val = t.val * 2000 + p.val; omega
    | ⟨1, _⟩ => show win1_0.index t (1 : Fin 2) * 800 + 1 * k.val = k.val; omega
  · intro k q
    show V c main_arg7 (((cfg1.win 1).blk t).view.emb (ValueIdx.ix2 k q)) = V c main_arg7 _
    refine congrArg _ ?_
    funext a; apply Fin.ext
    match a with
    | ⟨0, _⟩ => show win1_1.index t (0 : Fin 2) * 800 + 1 * k.val = k.val; omega
    | ⟨1, _⟩ => show win1_1.index t (1 : Fin 2) * 200 + 1 * q.val = q.val; omega
  · show Cert.Bridge.proj2 (F := Ideal) (V c main_v14) (V c main_arg7) _ = Cert.Bridge.proj2 (F := Ideal) (V c main_v14) (V c main_arg7) (((cfg1.win 2).blk t).view.emb (ValueIdx.ix2 p q))
    refine congrArg _ ?_
    funext a; apply Fin.ext
    match a with
    | ⟨0, _⟩ => show t.val * 2000 + p.val = win1_2.index t (0 : Fin 2) * 2000 + 1 * p.val; omega
    | ⟨1, _⟩ => show q.val = win1_2.index t (1 : Fin 2) * 200 + 1 * q.val; omega
end

/-- An index of the output array lies in point `t`'s block iff each coordinate lies in the block's range on its axis. -/
theorem mem_blk1 (t : Fin cfg1.N) (i : S20000x200.Idx) :
    i ∈ ((cfg1.win 2).blk t).view.set ↔ ∀ a : Fin 2, win1_2.index t a * S2000x200.size a ≤ (i a).val ∧ (i a).val < win1_2.index t a * S2000x200.size a + S2000x200.size a := by
  show i ∈ ((View.whole main_v15).slice (win1_2.rect t)).set ↔ _
  rw [View.set_slice_whole, Rect.mem_set_unit]
  exact Iff.rfl

/-- Every row `r` of the output lies in the block of point `r / 2000`. -/
theorem cover1 (i : S20000x200.Idx) : ∃ t : Fin cfg1.N, (cfg1.win 2).flush t = true ∧ i ∈ ((cfg1.win 2).blk t).view.set := by
  have hi0 : (i 0).val < 20000 := (i 0).isLt
  have hi1 : (i 1).val < 200 := (i 1).isLt
  obtain ⟨t, ht⟩ : ∃ t : Fin cfg1.N, t.val = (i 0).val / 2000 := ⟨⟨(i 0).val / 2000, lt_of_lt_of_eq (by omega) N_1.symm⟩, rfl⟩
  obtain ⟨-, -, -, -, e20, e21⟩ := blocks1 t
  refine ⟨t, flush1_2 t, ?_⟩
  rw [mem_blk1]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 200 ≤ (i 1).val ∧ (i 1).val < win1_2.index t (1 : Fin 2) * 200 + 200; omega

section
variable (V : (c : Dev nD) → (b : Ref sig .tc) → Buf (Elt Ideal) ((c : Thread nD τ).loc b)) (c : Dev nD)

/-- After the ten points the output array holds the whole product. -/
theorem final1 : (dat1 (F := Ideal) V c).arrAt 2 cfg1.N = Cert.Bridge.proj2 (F := Ideal) (V c main_v14) (V c main_arg7) :=
  (dat1 (F := Ideal) V c).arrAt_eq_of_cover 2 _ (fun t _ => flushed1 V c t) cover1
end

/-! ## The second tower's first-layer product -/

/-- The block index maps, decided over the ten grid points: point `t` holds block row `t` of the left operand and of
    the output, and the one block of the weight matrix. -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt Ideal) ((c : Thread nD τ).loc b)) (c : Dev nD)

/-- What point `t` writes back is block `t` of the whole product. -/
theorem flushed2 (t : Fin cfg2.N) :
    (dat2 (F := Ideal) V c).flushed 2 t = ((cfg2.win 2).blk t).view.read (Elt Ideal) (Cert.Bridge.proj1 (F := Ideal) (V c main_arg1) (V c main_arg8)) := by
  show (cfg2.win 2).cut (grid2.coords t) ((dat2 (F := Ideal) V c).after 2 t) = _
  rw [after2_2]
  unfold out2_2
  rw [View.canon_unit_zero origin2]
  simp only [View.ld_unit_zero (S := S2000x512) origin2, View.ld_unit_zero (S := S512x800) origin2]
  obtain ⟨e00, e01, e10, e11, e20, e21⟩ := blocks2 t
  have ht : t.val < 10 := lt_of_lt_of_eq t.isLt N_2
  funext y
  obtain ⟨p, q, rfl⟩ : ∃ (p : Fin 2000) (q : Fin 800), y = ValueIdx.ix2 p q := ⟨y 0, y 1, ValueIdx.eq_ix2 y⟩
  refine (block512 (iblk2 V c 0 t) (iblk2 V c 1 t) (V c main_arg1) (V c main_arg8) (fun p => ⟨t.val * 2000 + p.val, by omega⟩) ?_ ?_ p q).trans ?_
  · intro p k
    show V c main_arg1 (((cfg2.win 0).blk t).view.emb (ValueIdx.ix2 p k)) = V c main_arg1 _
    refine congrArg _ ?_
    funext a; apply Fin.ext
    match a with
    | ⟨0, _⟩ => show win2_0.index t (0 : Fin 2) * 2000 + 1 * p.val = t.val * 2000 + p.val; omega
    | ⟨1, _⟩ => show win2_0.index t (1 : Fin 2) * 512 + 1 * k.val = k.val; omega
  · intro k q
    show V c main_arg8 (((cfg2.win 1).blk t).view.emb (ValueIdx.ix2 k q)) = V c main_arg8 _
    refine congrArg _ ?_
    funext a; apply Fin.ext
    match a with
    | ⟨0, _⟩ => show win2_1.index t (0 : Fin 2) * 512 + 1 * k.val = k.val; omega
    | ⟨1, _⟩ => show win2_1.index t (1 : Fin 2) * 800 + 1 * q.val = q.val; omega
  · show Cert.Bridge.proj1 (F := Ideal) (V c main_arg1) (V c main_arg8) _ = Cert.Bridge.proj1 (F := Ideal) (V c main_arg1) (V c main_arg8) (((cfg2.win 2).blk t).view.emb (ValueIdx.ix2 p q))
    refine congrArg _ ?_
    funext a; apply Fin.ext
    match a with
    | ⟨0, _⟩ => show t.val * 2000 + p.val = win2_2.index t (0 : Fin 2) * 2000 + 1 * p.val; omega
    | ⟨1, _⟩ => show q.val = win2_2.index t (1 : Fin 2) * 800 + 1 * q.val; omega
end

/-- An index of the output array lies in point `t`'s block iff each coordinate lies in the block's range on its axis. -/
theorem mem_blk2 (t : Fin cfg2.N) (i : S20000x800.Idx) :
    i ∈ ((cfg2.win 2).blk t).view.set ↔ ∀ a : Fin 2, win2_2.index t a * S2000x800.size a ≤ (i a).val ∧ (i a).val < win2_2.index t a * S2000x800.size a + S2000x800.size a := by
  show i ∈ ((View.whole main_v30).slice (win2_2.rect t)).set ↔ _
  rw [View.set_slice_whole, Rect.mem_set_unit]
  exact Iff.rfl

/-- Every row `r` of the output lies in the block of point `r / 2000`. -/
theorem cover2 (i : S20000x800.Idx) : ∃ t : Fin cfg2.N, (cfg2.win 2).flush t = true ∧ i ∈ ((cfg2.win 2).blk t).view.set := by
  have hi0 : (i 0).val < 20000 := (i 0).isLt
  have hi1 : (i 1).val < 800 := (i 1).isLt
  obtain ⟨t, ht⟩ : ∃ t : Fin cfg2.N, t.val = (i 0).val / 2000 := ⟨⟨(i 0).val / 2000, lt_of_lt_of_eq (by omega) N_2.symm⟩, rfl⟩
  obtain ⟨-, -, -, -, e20, e21⟩ := blocks2 t
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 800 ≤ (i 1).val ∧ (i 1).val < win2_2.index t (1 : Fin 2) * 800 + 800; omega

section
variable (V : (c : Dev nD) → (b : Ref sig .tc) → Buf (Elt Ideal) ((c : Thread nD τ).loc b)) (c : Dev nD)

/-- After the ten points the output array holds the whole product. -/
theorem final2 : (dat2 (F := Ideal) V c).arrAt 2 cfg2.N = Cert.Bridge.proj1 (F := Ideal) (V c main_arg1) (V c main_arg8) :=
  (dat2 (F := Ideal) V c).arrAt_eq_of_cover 2 _ (fun t _ => flushed2 V c t) cover2
end

/-! ## The second tower's second-layer product -/

/-- The block index maps, decided over the ten grid points: point `t` holds block row `t` of the left operand and of
    the output, and the one block of the weight matrix. -/
theorem blocks3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b)) (c : Dev nD)

/-- What point `t` writes back is block `t` of the whole product. -/
theorem flushed3 (t : Fin cfg3.N) :
    (dat3 (F := Ideal) V c).flushed 2 t = ((cfg3.win 2).blk t).view.read (Elt Ideal) (Cert.Bridge.proj2 (F := Ideal) (V c main_v44) (V c main_arg9)) := by
  show (cfg3.win 2).cut (grid3.coords t) ((dat3 (F := Ideal) V c).after 2 t) = _
  rw [after3_2]
  unfold out3_2
  rw [View.canon_unit_zero origin2]
  simp only [View.ld_unit_zero (S := S2000x800) origin2, View.ld_unit_zero (S := S800x200) origin2]
  obtain ⟨e00, e01, e10, e11, e20, e21⟩ := blocks3 t
  have ht : t.val < 10 := lt_of_lt_of_eq t.isLt N_3
  funext y
  obtain ⟨p, q, rfl⟩ : ∃ (p : Fin 2000) (q : Fin 200), y = ValueIdx.ix2 p q := ⟨y 0, y 1, ValueIdx.eq_ix2 y⟩
  refine (block800 (iblk3 V c 0 t) (iblk3 V c 1 t) (V c main_v44) (V c main_arg9) (fun p => ⟨t.val * 2000 + p.val, by omega⟩) ?_ ?_ p q).trans ?_
  · intro p k
    show V c main_v44 (((cfg3.win 0).blk t).view.emb (ValueIdx.ix2 p k)) = V c main_v44 _
    refine congrArg _ ?_
    funext a; apply Fin.ext
    match a with
    | ⟨0, _⟩ => show win3_0.index t (0 : Fin 2) * 2000 + 1 * p.val = t.val * 2000 + p.val; omega
    | ⟨1, _⟩ => show win3_0.index t (1 : Fin 2) * 800 + 1 * k.val = k.val; omega
  · intro k q
    show V c main_arg9 (((cfg3.win 1).blk t).view.emb (ValueIdx.ix2 k q)) = V c main_arg9 _
    refine congrArg _ ?_
    funext a; apply Fin.ext
    match a with
    | ⟨0, _⟩ => show win3_1.index t (0 : Fin 2) * 800 + 1 * k.val = k.val; omega
    | ⟨1, _⟩ => show win3_1.index t (1 : Fin 2) * 200 + 1 * q.val = q.val; omega
  · show Cert.Bridge.proj2 (F := Ideal) (V c main_v44) (V c main_arg9) _ = Cert.Bridge.proj2 (F := Ideal) (V c main_v44) (V c main_arg9) (((cfg3.win 2).blk t).view.emb (ValueIdx.ix2 p q))
    refine congrArg _ ?_
    funext a; apply Fin.ext
    match a with
    | ⟨0, _⟩ => show t.val * 2000 + p.val = win3_2.index t (0 : Fin 2) * 2000 + 1 * p.val; omega
    | ⟨1, _⟩ => show q.val = win3_2.index t (1 : Fin 2) * 200 + 1 * q.val; omega
end

/-- An index of the output array lies in point `t`'s block iff each coordinate lies in the block's range on its axis. -/
theorem mem_blk3 (t : Fin cfg3.N) (i : S20000x200.Idx) :
    i ∈ ((cfg3.win 2).blk t).view.set ↔ ∀ a : Fin 2, win3_2.index t a * S2000x200.size a ≤ (i a).val ∧ (i a).val < win3_2.index t a * S2000x200.size a + S2000x200.size a := by
  show i ∈ ((View.whole main_v45).slice (win3_2.rect t)).set ↔ _
  rw [View.set_slice_whole, Rect.mem_set_unit]
  exact Iff.rfl

/-- Every row `r` of the output lies in the block of point `r / 2000`. -/
theorem cover3 (i : S20000x200.Idx) : ∃ t : Fin cfg3.N, (cfg3.win 2).flush t = true ∧ i ∈ ((cfg3.win 2).blk t).view.set := by
  have hi0 : (i 0).val < 20000 := (i 0).isLt
  have hi1 : (i 1).val < 200 := (i 1).isLt
  obtain ⟨t, ht⟩ : ∃ t : Fin cfg3.N, t.val = (i 0).val / 2000 := ⟨⟨(i 0).val / 2000, lt_of_lt_of_eq (by omega) N_3.symm⟩, rfl⟩
  obtain ⟨-, -, -, -, e20, e21⟩ := blocks3 t
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 200 ≤ (i 1).val ∧ (i 1).val < win3_2.index t (1 : Fin 2) * 200 + 200; omega

section
variable (V : (c : Dev nD) → (b : Ref sig .tc) → Buf (Elt Ideal) ((c : Thread nD τ).loc b)) (c : Dev nD)

/-- After the ten points the output array holds the whole product. -/
theorem final3 : (dat3 (F := Ideal) V c).arrAt 2 cfg3.N = Cert.Bridge.proj2 (F := Ideal) (V c main_v44) (V c main_arg9) :=
  (dat3 (F := Ideal) V c).arrAt_eq_of_cover 2 _ (fun t _ => flushed3 V c t) cover3
end

end Cert.KernelIdeal.TowerProducts
end
-- ==== Proof.EdgeMlpBlocks.lean ====
/-
  The fused edge predictor, block by block.

  The launched kernel runs over 32 grid points.  Point `t` loads rows `4096 t … 4096 t + 4095` of the joined
  pair features `X` (131072 × 400) together with the whole first-layer weights `W₁` (400 × 64), the whole bias
  row `b` (1 × 64) and the whole second-layer weights `W₂` (64 × 1), and writes rows `4096 t …` of the
  131072 × 1 result.  This module proves that the array the 32 write-backs leave is the whole-array expression
  `max (max (X · W₁ + b) 0 · W₂) 0`: at an output index `(r, 0)` both sides are

      max (∑ j : Fin 64, max (∑ k : Fin 400, X (r, k) * W₁ (k, j) + b (0, j)) 0 * W₂ (j, 0)) 0

  over the extended reals — the same finite sums of the same products, term by term, with the same literal zero
  word on both sides (it is never evaluated), so no finiteness of the data is needed.  A block's row `p` is the
  array's row `4096 t + p`, and every row of the array lies in the block of point `r / 4096`.
-/
import proofs.«158018_j11269994185511_1_alg».proof.Proof.Spec
import proofs.«158018_j11269994185511_1_alg».proof.Proof.Gen.KernelIdeal.Frame
import Idealize.ShloMosaic.Lib.Pipeline.Value
import Idealize.ShloMosaic.Lib.ValueIdx
import Idealize.ShloMosaic.PureOps.Ideal.Laws

noncomputable section
namespace Cert.KernelIdeal.EdgeMlpBlocks
open Idealize.ShloMosaic Idealize.ShloMosaic.TcCoe Idealize.SL.Sem Cert.KernelIdeal Cert.KernelIdeal.Gen
open Idealize.ShloMosaic.Pipeline (Dat)
open Idealize.ShloMosaic.ValueIdx (ix2 eq_ix2)

/-- The kernel's first product on a block, read at row `p`, hidden unit `j`: the sum over the 400 joined features. -/
theorem blockHiddenProduct_apply (l : FVec Ideal S4096x400 .bf16) (r : FVec Ideal S400x64 .bf16) (p : Fin 4096) (j : Fin 64) :
    matmul (F := Ideal) dot_S4096x400_S400x64_S4096x64_1_0_0_1_n_n none l r (constant S4096x64 .f32 0x00000000#32) (ix2 p j) = ∑ k : Fin 400, l (ix2 p k) * r (ix2 k j) := by
  show FloatOps.matmul dot_S4096x400_S400x64_S4096x64_1_0_0_1_n_n none l r (constant S4096x64 .f32 0x00000000#32) (ix2 p j) = _
  rw [Ideal.matmul_constant_zero_apply, ← Equiv.sum_comp (ValueIdx.contrEquiv1 dot_S4096x400_S400x64_S4096x64_1_0_0_1_n_n 400 rfl rfl).symm]
  refine Finset.sum_congr rfl fun k _ => ?_
  have hk := ValueIdx.contrEquiv1_symm_val dot_S4096x400_S400x64_S4096x64_1_0_0_1_n_n 400 rfl rfl k
  have el : dot_S4096x400_S400x64_S4096x64_1_0_0_1_n_n.lhsIdx (ix2 p j) ((ValueIdx.contrEquiv1 dot_S4096x400_S400x64_S4096x64_1_0_0_1_n_n 400 rfl rfl).symm k) = ix2 p k := funext fun a => Fin.ext (by
    match a with
    | ⟨0, _⟩ =>
      show (dot_S4096x400_S400x64_S4096x64_1_0_0_1_n_n.lhsIdx (ix2 p j) _ 0).val = p.val
      unfold DotDims.lhsIdx
      rw [dif_neg (show ¬(0 : Fin S4096x400.rank) ∈ dot_S4096x400_S400x64_S4096x64_1_0_0_1_n_n.lhsBatch by decide), dif_pos (show (0 : Fin S4096x400.rank) ∈ dot_S4096x400_S400x64_S4096x64_1_0_0_1_n_n.lhsNonContracting by decide)]
      rfl
    | ⟨1, _⟩ => exact (dot_S4096x400_S400x64_S4096x64_1_0_0_1_n_n.lhsIdx_val_of_single rfl (ix2 p j) _).trans hk)
  have er : dot_S4096x400_S400x64_S4096x64_1_0_0_1_n_n.rhsIdx (ix2 p j) ((ValueIdx.contrEquiv1 dot_S4096x400_S400x64_S4096x64_1_0_0_1_n_n 400 rfl rfl).symm k) = ix2 k j := funext fun a => Fin.ext (by
    match a with
    | ⟨0, _⟩ => exact (dot_S4096x400_S400x64_S4096x64_1_0_0_1_n_n.rhsIdx_val_of_single rfl (ix2 p j) _).trans hk
    | ⟨1, _⟩ =>
      show (dot_S4096x400_S400x64_S4096x64_1_0_0_1_n_n.rhsIdx (ix2 p j) _ 1).val = j.val
      unfold DotDims.rhsIdx
      rw [dif_neg (show ¬(1 : Fin S400x64.rank) ∈ dot_S4096x400_S400x64_S4096x64_1_0_0_1_n_n.rhsBatch by decide), dif_pos (show (1 : Fin S400x64.rank) ∈ dot_S4096x400_S400x64_S4096x64_1_0_0_1_n_n.rhsNonContracting by decide)]
      rfl)
  rw [el, er]

/-- The kernel's second product on a block, read at row `p`: the sum over the 64 hidden units. -/
theorem blockOutputProduct_apply (l : FVec Ideal S4096x64 .bf16) (r : FVec Ideal S64x1 .bf16) (p : Fin 4096) (j : Fin 1) :
    matmul (F := Ideal) dot_S4096x64_S64x1_S4096x1_1_0_0_1_n_n none l r (constant S4096x1 .f32 0x00000000#32) (ix2 p j) = ∑ k : Fin 64, l (ix2 p k) * r (ix2 k j) := by
  show FloatOps.matmul dot_S4096x64_S64x1_S4096x1_1_0_0_1_n_n none l r (constant S4096x1 .f32 0x00000000#32) (ix2 p j) = _
  rw [Ideal.matmul_constant_zero_apply, ← Equiv.sum_comp (ValueIdx.contrEquiv1 dot_S4096x64_S64x1_S4096x1_1_0_0_1_n_n 64 rfl rfl).symm]
  refine Finset.sum_congr rfl fun k _ => ?_
  have hk := ValueIdx.contrEquiv1_symm_val dot_S4096x64_S64x1_S4096x1_1_0_0_1_n_n 64 rfl rfl k
  have el : dot_S4096x64_S64x1_S4096x1_1_0_0_1_n_n.lhsIdx (ix2 p j) ((ValueIdx.contrEquiv1 dot_S4096x64_S64x1_S4096x1_1_0_0_1_n_n 64 rfl rfl).symm k) = ix2 p k := funext fun a => Fin.ext (by
    match a with
    | ⟨0, _⟩ =>
      show (dot_S4096x64_S64x1_S4096x1_1_0_0_1_n_n.lhsIdx (ix2 p j) _ 0).val = p.val
      unfold DotDims.lhsIdx
      rw [dif_neg (show ¬(0 : Fin S4096x64.rank) ∈ dot_S4096x64_S64x1_S4096x1_1_0_0_1_n_n.lhsBatch by decide), dif_pos (show (0 : Fin S4096x64.rank) ∈ dot_S4096x64_S64x1_S4096x1_1_0_0_1_n_n.lhsNonContracting by decide)]
      rfl
    | ⟨1, _⟩ => exact (dot_S4096x64_S64x1_S4096x1_1_0_0_1_n_n.lhsIdx_val_of_single rfl (ix2 p j) _).trans hk)
  have er : dot_S4096x64_S64x1_S4096x1_1_0_0_1_n_n.rhsIdx (ix2 p j) ((ValueIdx.contrEquiv1 dot_S4096x64_S64x1_S4096x1_1_0_0_1_n_n 64 rfl rfl).symm k) = ix2 k j := funext fun a => Fin.ext (by
    match a with
    | ⟨0, _⟩ => exact (dot_S4096x64_S64x1_S4096x1_1_0_0_1_n_n.rhsIdx_val_of_single rfl (ix2 p j) _).trans hk
    | ⟨1, _⟩ =>
      show (dot_S4096x64_S64x1_S4096x1_1_0_0_1_n_n.rhsIdx (ix2 p j) _ 1).val = j.val
      unfold DotDims.rhsIdx
      rw [dif_neg (show ¬(1 : Fin S64x1.rank) ∈ dot_S4096x64_S64x1_S4096x1_1_0_0_1_n_n.rhsBatch by decide), dif_pos (show (1 : Fin S64x1.rank) ∈ dot_S4096x64_S64x1_S4096x1_1_0_0_1_n_n.rhsNonContracting by decide)]
      rfl)
  rw [el, er]

/-- The whole-array first product read at row `p`, hidden unit `j`: the same sum over the 400 joined features. -/
theorem hiddenProduct_apply (l : FVec Ideal Cert.ReferenceIdeal.S131072x400 .f32) (r : FVec Ideal Cert.ReferenceIdeal.S400x64 .f32) (p : Fin 131072) (j : Fin 64) :
    Host.dotGeneral (F := Ideal) Cert.ReferenceIdeal.dot_S131072x400_S400x64_S131072x64_1_0_0_1_n_n none l r (ix2 p j) = ∑ k : Fin 400, l (ix2 p k) * r (ix2 k j) := by
  simp only [Host.dotGeneral]
  rw [Ideal.dotGeneral_apply, ← Equiv.sum_comp (ValueIdx.contrEquiv1 Cert.ReferenceIdeal.dot_S131072x400_S400x64_S131072x64_1_0_0_1_n_n 400 rfl rfl).symm]
  refine Finset.sum_congr rfl fun k _ => ?_
  have hk := ValueIdx.contrEquiv1_symm_val Cert.ReferenceIdeal.dot_S131072x400_S400x64_S131072x64_1_0_0_1_n_n 400 rfl rfl k
  have el : Cert.ReferenceIdeal.dot_S131072x400_S400x64_S131072x64_1_0_0_1_n_n.lhsIdx (ix2 p j) ((ValueIdx.contrEquiv1 Cert.ReferenceIdeal.dot_S131072x400_S400x64_S131072x64_1_0_0_1_n_n 400 rfl rfl).symm k) = ix2 p k := funext fun a => Fin.ext (by
    match a with
    | ⟨0, _⟩ =>
      show (Cert.ReferenceIdeal.dot_S131072x400_S400x64_S131072x64_1_0_0_1_n_n.lhsIdx (ix2 p j) _ 0).val = p.val
      unfold DotDims.lhsIdx
      rw [dif_neg (show ¬(0 : Fin Cert.ReferenceIdeal.S131072x400.rank) ∈ Cert.ReferenceIdeal.dot_S131072x400_S400x64_S131072x64_1_0_0_1_n_n.lhsBatch by decide), dif_pos (show (0 : Fin Cert.ReferenceIdeal.S131072x400.rank) ∈ Cert.ReferenceIdeal.dot_S131072x400_S400x64_S131072x64_1_0_0_1_n_n.lhsNonContracting by decide)]
      rfl
    | ⟨1, _⟩ => exact (Cert.ReferenceIdeal.dot_S131072x400_S400x64_S131072x64_1_0_0_1_n_n.lhsIdx_val_of_single rfl (ix2 p j) _).trans hk)
  have er : Cert.ReferenceIdeal.dot_S131072x400_S400x64_S131072x64_1_0_0_1_n_n.rhsIdx (ix2 p j) ((ValueIdx.contrEquiv1 Cert.ReferenceIdeal.dot_S131072x400_S400x64_S131072x64_1_0_0_1_n_n 400 rfl rfl).symm k) = ix2 k j := funext fun a => Fin.ext (by
    match a with
    | ⟨0, _⟩ => exact (Cert.ReferenceIdeal.dot_S131072x400_S400x64_S131072x64_1_0_0_1_n_n.rhsIdx_val_of_single rfl (ix2 p j) _).trans hk
    | ⟨1, _⟩ =>
      show (Cert.ReferenceIdeal.dot_S131072x400_S400x64_S131072x64_1_0_0_1_n_n.rhsIdx (ix2 p j) _ 1).val = j.val
      unfold DotDims.rhsIdx
      rw [dif_neg (show ¬(1 : Fin Cert.ReferenceIdeal.S400x64.rank) ∈ Cert.ReferenceIdeal.dot_S131072x400_S400x64_S131072x64_1_0_0_1_n_n.rhsBatch by decide), dif_pos (show (1 : Fin Cert.ReferenceIdeal.S400x64.rank) ∈ Cert.ReferenceIdeal.dot_S131072x400_S400x64_S131072x64_1_0_0_1_n_n.rhsNonContracting by decide)]
      rfl)
  rw [el, er]

/-- The whole-array second product read at row `p`: the same sum over the 64 hidden units. -/
theorem outputProduct_apply (l : FVec Ideal Cert.ReferenceIdeal.S131072x64 .f32) (r : FVec Ideal Cert.ReferenceIdeal.S64x1 .f32) (p : Fin 131072) (j : Fin 1) :
    Host.dotGeneral (F := Ideal) Cert.ReferenceIdeal.dot_S131072x64_S64x1_S131072x1_1_0_0_1_n_n none l r (ix2 p j) = ∑ k : Fin 64, l (ix2 p k) * r (ix2 k j) := by
  simp only [Host.dotGeneral]
  rw [Ideal.dotGeneral_apply, ← Equiv.sum_comp (ValueIdx.contrEquiv1 Cert.ReferenceIdeal.dot_S131072x64_S64x1_S131072x1_1_0_0_1_n_n 64 rfl rfl).symm]
  refine Finset.sum_congr rfl fun k _ => ?_
  have hk := ValueIdx.contrEquiv1_symm_val Cert.ReferenceIdeal.dot_S131072x64_S64x1_S131072x1_1_0_0_1_n_n 64 rfl rfl k
  have el : Cert.ReferenceIdeal.dot_S131072x64_S64x1_S131072x1_1_0_0_1_n_n.lhsIdx (ix2 p j) ((ValueIdx.contrEquiv1 Cert.ReferenceIdeal.dot_S131072x64_S64x1_S131072x1_1_0_0_1_n_n 64 rfl rfl).symm k) = ix2 p k := funext fun a => Fin.ext (by
    match a with
    | ⟨0, _⟩ =>
      show (Cert.ReferenceIdeal.dot_S131072x64_S64x1_S131072x1_1_0_0_1_n_n.lhsIdx (ix2 p j) _ 0).val = p.val
      unfold DotDims.lhsIdx
      rw [dif_neg (show ¬(0 : Fin Cert.ReferenceIdeal.S131072x64.rank) ∈ Cert.ReferenceIdeal.dot_S131072x64_S64x1_S131072x1_1_0_0_1_n_n.lhsBatch by decide), dif_pos (show (0 : Fin Cert.ReferenceIdeal.S131072x64.rank) ∈ Cert.ReferenceIdeal.dot_S131072x64_S64x1_S131072x1_1_0_0_1_n_n.lhsNonContracting by decide)]
      rfl
    | ⟨1, _⟩ => exact (Cert.ReferenceIdeal.dot_S131072x64_S64x1_S131072x1_1_0_0_1_n_n.lhsIdx_val_of_single rfl (ix2 p j) _).trans hk)
  have er : Cert.ReferenceIdeal.dot_S131072x64_S64x1_S131072x1_1_0_0_1_n_n.rhsIdx (ix2 p j) ((ValueIdx.contrEquiv1 Cert.ReferenceIdeal.dot_S131072x64_S64x1_S131072x1_1_0_0_1_n_n 64 rfl rfl).symm k) = ix2 k j := funext fun a => Fin.ext (by
    match a with
    | ⟨0, _⟩ => exact (Cert.ReferenceIdeal.dot_S131072x64_S64x1_S131072x1_1_0_0_1_n_n.rhsIdx_val_of_single rfl (ix2 p j) _).trans hk
    | ⟨1, _⟩ =>
      show (Cert.ReferenceIdeal.dot_S131072x64_S64x1_S131072x1_1_0_0_1_n_n.rhsIdx (ix2 p j) _ 1).val = j.val
      unfold DotDims.rhsIdx
      rw [dif_neg (show ¬(1 : Fin Cert.ReferenceIdeal.S64x1.rank) ∈ Cert.ReferenceIdeal.dot_S131072x64_S64x1_S131072x1_1_0_0_1_n_n.rhsBatch by decide), dif_pos (show (1 : Fin Cert.ReferenceIdeal.S64x1.rank) ∈ Cert.ReferenceIdeal.dot_S131072x64_S64x1_S131072x1_1_0_0_1_n_n.rhsNonContracting by decide)]
      rfl)
  rw [el, er]

/-! ## One row of the predictor -/

/-- The predictor on ONE row `x` of joined features, its result's column `q` (there is one):
    `max (∑ j, max (∑ k, x k * W₁ (k, j) + b (0, j)) 0 * W₂ (j, q)) 0`, the zero being the programs' literal zero
    word, left as it is written. -/
def rowValue (x : Fin 400 → EReal) (W1 : (⟨2, ![400, 64]⟩ : Shape).Idx → EReal) (b : (⟨2, ![1, 64]⟩ : Shape).Idx → EReal)
    (W2 : (⟨2, ![64, 1]⟩ : Shape).Idx → EReal) (q : Fin 1) : EReal :=
  max (∑ j : Fin 64, max (∑ k : Fin 400, x k * W1 (ix2 k j) + b (ix2 0 j)) (Ideal.ofBits .f32 0x00000000#32) * W2 (ix2 j q))
    (Ideal.ofBits .f32 0x00000000#32)

/-- The kernel's hidden layer on a block, read at row `p`, hidden unit `j`: the first product there, plus the bias
    row's entry `j` (the row is repeated down the block), clipped at zero. -/
theorem blockHidden_apply (x0 : Vec Ideal S4096x400 .f32) (x1 : Vec Ideal S400x64 .f32) (x2 : Vec Ideal S1x64 .f32) (p : Fin 4096) (j : Fin 64) :
    maximumf (addf (matmul (F := Ideal) dot_S4096x400_S400x64_S4096x64_1_0_0_1_n_n none
          (truncf .bf16 (shapeCast S4096x400 x0 shapeCasts_S4096x400_S4096x400) bitsLt_bf16_f32) (truncf .bf16 x1 bitsLt_bf16_f32)
          (constant S4096x64 .f32 0x00000000#32))
        (broadcastTo S4096x64 (shapeCast S1x64 x2 shapeCasts_S1x64_S1x64) broadcasts_S1x64_S4096x64))
      (broadcast S4096x64 (Scalar.ofBits (F := Ideal) .f32 0x00000000#32)) (ix2 p j)
      = max (∑ k : Fin 400, x0 (ix2 p k) * x1 (ix2 k j) + x2 (ix2 0 j)) (Ideal.ofBits .f32 0x00000000#32) := by
  rw [shapeCast_self, shapeCast_self]
  refine congrArg₂ max (congrArg₂ (· + ·) (blockHiddenProduct_apply _ _ p j) ?_) rfl
  exact broadcastTo_apply x2 broadcasts_S1x64_S4096x64 (ix2 p j) (ix2 0 j) (fun a => match a with
    | ⟨0, _⟩ => by show 0 = if (1 : Nat) = 1 then 0 else _; rw [if_pos rfl]
    | ⟨1, _⟩ => by show j.val = if (64 : Nat) = 1 then 0 else j.val; rw [if_neg (by decide)])

/-- THE KERNEL'S PAYLOAD at row `p` of a block: the predictor on that row of the loaded feature block. -/
theorem payload_apply (x0 : Vec Ideal S4096x400 .f32) (x1 : Vec Ideal S400x64 .f32) (x2 : Vec Ideal S1x64 .f32) (x3 : Vec Ideal S64x1 .f32)
    (p : Fin 4096) (q : Fin 1) :
    k4_pay1 (F := Ideal) x0 x1 x2 x3 (ix2 p q) = rowValue (fun k => x0 (ix2 p k)) x1 x2 x3 q := by
  unfold k4_pay1 rowValue
  refine congrArg₂ max ((blockOutputProduct_apply _ _ p q).trans (Finset.sum_congr rfl fun j _ => ?_)) rfl
  exact congrArg (· * x3 (ix2 j q)) (blockHidden_apply x0 x1 x2 p j)

/-- The whole-array hidden layer read at row `r`, hidden unit `j`. -/
theorem hidden_apply (X : (⟨Cert.ReferenceIdeal.S131072x400, .f32⟩ : BufTy).Contents (Elt Ideal)) (W1 : (⟨Cert.ReferenceIdeal.S400x64, .f32⟩ : BufTy).Contents (Elt Ideal))
    (b : (⟨Cert.ReferenceIdeal.S1x64, .f32⟩ : BufTy).Contents (Elt Ideal)) (r : Fin 131072) (j : Fin 64) :
    maximumf (addf (Host.dotGeneral (F := Ideal) (φ₁ := .f32) (φ₂ := .f32) Cert.ReferenceIdeal.dot_S131072x400_S400x64_S131072x64_1_0_0_1_n_n none X W1)
        (broadcastInDim Cert.ReferenceIdeal.S131072x64 ![0, 1] Cert.ReferenceIdeal.Facts₀.bcast_S1x64_S131072x64_0_1 b))
      (broadcastInDim Cert.ReferenceIdeal.S131072x64 ![] Cert.ReferenceIdeal.Facts₀.bcast_S_S131072x64 (constant (F := Ideal) Cert.ReferenceIdeal.S_ .f32 0x00000000#32)) (ix2 r j)
      = max (∑ k : Fin 400, X (ix2 r k) * W1 (ix2 k j) + b (ix2 0 j)) (Ideal.ofBits .f32 0x00000000#32) := by
  refine congrArg₂ max (congrArg₂ (· + ·) (hiddenProduct_apply _ _ r j) ?_) rfl
  exact broadcastInDim_apply _ Cert.ReferenceIdeal.Facts₀.bcast_S1x64_S131072x64_0_1 b (ix2 r j) (ix2 0 j) (fun a => match a with
    | ⟨0, _⟩ => by show 0 = if (1 : Nat) = 1 then 0 else _; rw [if_pos rfl]
    | ⟨1, _⟩ => by show j.val = if (64 : Nat) = 1 then 0 else j.val; rw [if_neg (by decide)])

/-- THE WHOLE-ARRAY EXPRESSION at row `r`: the predictor on that row of the feature array. -/
theorem edgeMlp_apply (X : (⟨Cert.ReferenceIdeal.S131072x400, .f32⟩ : BufTy).Contents (Elt Ideal)) (W1 : (⟨Cert.ReferenceIdeal.S400x64, .f32⟩ : BufTy).Contents (Elt Ideal))
    (b : (⟨Cert.ReferenceIdeal.S1x64, .f32⟩ : BufTy).Contents (Elt Ideal)) (W2 : (⟨Cert.ReferenceIdeal.S64x1, .f32⟩ : BufTy).Contents (Elt Ideal))
    (r : Fin 131072) (q : Fin 1) :
    Cert.Bridge.edgeMlp (F := Ideal) X W1 b W2 (ix2 r q) = rowValue (fun k => X (ix2 r k)) W1 b W2 q := by
  unfold Cert.Bridge.edgeMlp rowValue
  refine congrArg₂ max ((outputProduct_apply _ _ r q).trans (Finset.sum_congr rfl fun j _ => ?_)) rfl
  exact congrArg (· * W2 (ix2 j q)) (hidden_apply X W1 b r j)

/-- The predictor's row value depends only on the row and the three parameter arrays. -/
theorem rowValue_congr {x x' : Fin 400 → EReal} {W1 W1' : (⟨2, ![400, 64]⟩ : Shape).Idx → EReal} {b b' : (⟨2, ![1, 64]⟩ : Shape).Idx → EReal}
    {W2 W2' : (⟨2, ![64, 1]⟩ : Shape).Idx → EReal} (hx : x = x') (h1 : W1 = W1') (hb : b = b') (h2 : W2 = W2') (q : Fin 1) :
    rowValue x W1 b W2 q = rowValue x' W1' b' W2' q := by
  subst hx h1 hb h2; rfl

/-! ## From the blocks to the array -/

variable (V : (c : Dev nD) → (b : Ref sig .tc) → Buf (Elt Ideal) ((c : Thread nD τ).loc b)) (c : Dev nD)

/-- Every window of this region is read and written from the corner of its staging block. -/
theorem offsets_zero : (![0, 0] : Fin 2 → Nat) = fun _ => 0 := funext fun a => by fin_cases a <;> rfl

/-- The printed index maps, decided over the 32 grid points: the feature block and the output block of point `t`
    are block `t` of their arrays' rows, and the three parameter arrays are read whole at every point. -/
theorem index_facts : ∀ t : Fin cfg4.N, t.val < 32
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- WHAT POINT `t` WRITES BACK is block `t` of the whole-array predictor of the arrays as the region finds them. -/
theorem flushed_eq (t : Fin cfg4.N) :
    (dat4 (F := Ideal) V c).flushed 4 t = ((cfg4.win 4).blk t).view.read (Elt Ideal)
      (Cert.Bridge.edgeMlp (F := Ideal) (V c main_v83) (V c main_arg10) (V c main_v84) (V c main_arg12)) := by
  show (cfg4.win 4).cut (grid4.coords t) ((dat4 (F := Ideal) V c).after 4 t) = _
  rw [after4_4]
  unfold out4_4
  rw [View.canon_unit_zero offsets_zero]
  simp only [View.ld_unit_zero (S := S4096x400) offsets_zero, View.ld_unit_zero (S := S400x64) offsets_zero,
    View.ld_unit_zero (S := S1x64) offsets_zero, View.ld_unit_zero (S := S64x1) offsets_zero]
  obtain ⟨ht, e00, e01, e10, e11, e20, e21, e30, e31, e40, e41⟩ := index_facts t
  funext y
  obtain ⟨p, q, rfl⟩ : ∃ (p : Fin 4096) (q : Fin 1), y = ix2 p q := ⟨y 0, y 1, eq_ix2 y⟩
  have hp : p.val < 4096 := p.isLt
  have hq : q.val < 1 := q.isLt
  show k4_pay1 (F := Ideal) (iblk4 V c 0 t) (iblk4 V c 1 t) (iblk4 V c 2 t) (iblk4 V c 3 t) (ix2 p q)
    = Cert.Bridge.edgeMlp (F := Ideal) (V c main_v83) (V c main_arg10) (V c main_v84) (V c main_arg12) (((cfg4.win 4).blk t).view.emb (ix2 p q))
  have hr : 4096 * t.val + p.val < 131072 := by omega
  -- the output block's row `p` is the array's row `4096 t + p`
  have hrow : ((cfg4.win 4).blk t).view.emb (ix2 p q) = (ix2 (⟨4096 * t.val + p.val, hr⟩ : Fin 131072) q : S131072x1.Idx) := by
    funext a; apply Fin.ext
    match a with
    | ⟨0, _⟩ => show win4_4.index t (0 : Fin 2) * 4096 + 1 * p.val = 4096 * t.val + p.val; omega
    | ⟨1, _⟩ => show win4_4.index t (1 : Fin 2) * 1 + 1 * q.val = q.val; omega
  -- the feature block's row `p` is the feature array's row `4096 t + p`
  have h0 : (fun k : Fin 400 => iblk4 V c 0 t (ix2 p k)) = fun k : Fin 400 => V c main_v83 (ix2 (⟨4096 * t.val + p.val, hr⟩ : Fin 131072) k : S131072x400.Idx) := by
    funext k
    show V c main_v83 (((cfg4.win 0).blk t).view.emb (ix2 p k)) = _
    refine congrArg (V c main_v83) ?_
    funext a; apply Fin.ext
    match a with
    | ⟨0, _⟩ => show win4_0.index t (0 : Fin 2) * 4096 + 1 * p.val = 4096 * t.val + p.val; omega
    | ⟨1, _⟩ => show win4_0.index t (1 : Fin 2) * 400 + 1 * k.val = k.val; omega
  -- the three parameter blocks are the parameter arrays
  have h1 : iblk4 V c 1 t = V c main_arg10 := by
    funext z
    show V c main_arg10 (((cfg4.win 1).blk t).view.emb z) = V c main_arg10 z
    refine congrArg (V c main_arg10) ?_
    funext a; apply Fin.ext
    match a with
    | ⟨0, _⟩ => show win4_1.index t (0 : Fin 2) * 400 + 1 * (z 0).val = (z 0).val; omega
    | ⟨1, _⟩ => show win4_1.index t (1 : Fin 2) * 64 + 1 * (z 1).val = (z 1).val; omega
  have h2 : iblk4 V c 2 t = V c main_v84 := by
    funext z
    show V c main_v84 (((cfg4.win 2).blk t).view.emb z) = V c main_v84 z
    refine congrArg (V c main_v84) ?_
    funext a; apply Fin.ext
    match a with
    | ⟨0, _⟩ => show win4_2.index t (0 : Fin 2) * 1 + 1 * (z 0).val = (z 0).val; omega
    | ⟨1, _⟩ => show win4_2.index t (1 : Fin 2) * 64 + 1 * (z 1).val = (z 1).val; omega
  have h3 : iblk4 V c 3 t = V c main_arg12 := by
    funext z
    show V c main_arg12 (((cfg4.win 3).blk t).view.emb z) = V c main_arg12 z
    refine congrArg (V c main_arg12) ?_
    funext a; apply Fin.ext
    match a with
    | ⟨0, _⟩ => show win4_3.index t (0 : Fin 2) * 64 + 1 * (z 0).val = (z 0).val; omega
    | ⟨1, _⟩ => show win4_3.index t (1 : Fin 2) * 1 + 1 * (z 1).val = (z 1).val; omega
  refine (payload_apply (iblk4 V c 0 t) (iblk4 V c 1 t) (iblk4 V c 2 t) (iblk4 V c 3 t) p q).trans ?_
  refine (rowValue_congr h0 h1 h2 h3 q).trans ?_
  refine (edgeMlp_apply (V c main_v83) (V c main_arg10) (V c main_v84) (V c main_arg12) ⟨4096 * t.val + p.val, hr⟩ q).symm.trans ?_
  exact congrArg (Cert.Bridge.edgeMlp (F := Ideal) (V c main_v83) (V c main_arg10) (V c main_v84) (V c main_arg12)) hrow.symm

/-- An index of the result array is in point `t`'s block iff each coordinate is in the block's range on its axis. -/
theorem mem_block (t : Fin cfg4.N) (i : S131072x1.Idx) :
    i ∈ ((cfg4.win 4).blk t).view.set ↔ ∀ a : Fin 2, win4_4.index t a * S4096x1.size a ≤ (i a).val ∧ (i a).val < win4_4.index t a * S4096x1.size a + S4096x1.size a := by
  show i ∈ ((View.whole main_v85).slice (win4_4.rect t)).set ↔ _
  rw [View.set_slice_whole, Rect.mem_set_unit]
  exact Iff.rfl

/-- Every row `r` of the result lies in the block of point `r / 4096`, and every point writes its block back. -/
theorem covered (i : S131072x1.Idx) : ∃ t : Fin cfg4.N, (cfg4.win 4).flush t = true ∧ i ∈ ((cfg4.win 4).blk t).view.set := by
  have hi0 : (i 0).val < 131072 := (i 0).isLt
  have hi1 : (i 1).val < 1 := (i 1).isLt
  have hN : cfg4.N = 32 := N_4
  obtain ⟨t, ht⟩ : ∃ t : Fin cfg4.N, t.val = (i 0).val / 4096 := ⟨⟨(i 0).val / 4096, by rw [hN]; omega⟩, rfl⟩
  obtain ⟨-, -, -, -, -, -, -, -, -, e40, e41⟩ := index_facts t
  refine ⟨t, flush4_4 t, ?_⟩
  rw [mem_block]
  intro a
  match a with
  | ⟨0, _⟩ => show win4_4.index t (0 : Fin 2) * 4096 ≤ (i 0).val ∧ (i 0).val < win4_4.index t (0 : Fin 2) * 4096 + 4096; omega
  | ⟨1, _⟩ => show win4_4.index t (1 : Fin 2) * 1 ≤ (i 1).val ∧ (i 1).val < win4_4.index t (1 : Fin 2) * 1 + 1; omega

/-- THE ARRAY after the 32 write-backs is the whole-array predictor of the arrays as the region finds them. -/
theorem final4 : (dat4 (F := Ideal) V c).arrAt 4 cfg4.N = Cert.Bridge.edgeMlp (F := Ideal) (V c main_v83) (V c main_arg10) (V c main_v84) (V c main_arg12) :=
  (dat4 (F := Ideal) V c).arrAt_eq_of_cover 4 _ (fun t _ => flushed_eq V c t) (fun i => covered i)

end Cert.KernelIdeal.EdgeMlpBlocks
end
-- ==== Proof.HostStage1.lean ====
/-
  The host operations between the first tower's two launches: the sparse aggregation of the first product, clipped at zero (width 800).
  Stated for ANY contents `W` of the buffers before the stretch: the operations are applied in order, each result
  read where it is used, and the composed function is the specification's stage — the same operations, so nothing
  is opened.
-/
import proofs.«158018_j11269994185511_1_alg».proof.Proof.Spec
import proofs.«158018_j11269994185511_1_alg».proof.Proof.Gen.KernelIdeal.Launch
import Idealize.ShloMosaic.Lib.StableHlo.Run

set_option maxRecDepth 16384

noncomputable section

namespace Cert.KernelIdeal.HostStages

open Idealize.ShloMosaic Idealize.ShloMosaic.TcCoe Idealize.SL.Sem Cert.KernelIdeal Cert.KernelIdeal.Gen
open Idealize.ShloMosaic.StableHlo

variable (W : Valuation τ sig (Elt Ideal))

/-- Gather the rows the edge list names, scale by the edge weights, add into the target rows, clip at zero. -/
theorem stage1 :
    StableHlo.after (hostOps1_1 (F := Ideal)) (StableHlo.after (hostOps1 (F := Ideal)) W) (Proc.devRef .tc main_v14)
      = Cert.Bridge.aggClip800 (F := Ideal) (W (Proc.devRef .tc main_arg2)) (W (Proc.devRef .tc main_arg3)) (W (Proc.devRef .tc main_arg4)) (W (Proc.devRef .tc main_v0)) := by
  dsimp only [hostOps1, hostOps1_1]
  after_results_simp
  rfl

end Cert.KernelIdeal.HostStages

end
-- ==== Proof.HostStage2.lean ====
/-
  The host operations after the first tower's second launch: the sparse aggregation of the second product, clipped at zero (width 200).
  Stated for ANY contents `W` of the buffers before the stretch: the operations are applied in order, each result
  read where it is used, and the composed function is the specification's stage — the same operations, so nothing
  is opened.
-/
import proofs.«158018_j11269994185511_1_alg».proof.Proof.Spec
import proofs.«158018_j11269994185511_1_alg».proof.Proof.Gen.KernelIdeal.Launch
import Idealize.ShloMosaic.Lib.StableHlo.Run

set_option maxRecDepth 16384

noncomputable section

namespace Cert.KernelIdeal.HostStages

open Idealize.ShloMosaic Idealize.ShloMosaic.TcCoe Idealize.SL.Sem Cert.KernelIdeal Cert.KernelIdeal.Gen
open Idealize.ShloMosaic.StableHlo

variable (W : Valuation τ sig (Elt Ideal))

/-- The same aggregation and clipping at width 200: the first tower's embedding. -/
theorem stage2 :
    StableHlo.after (hostOps2_1 (F := Ideal)) (StableHlo.after (hostOps2 (F := Ideal)) W) (Proc.devRef .tc main_v29)
      = Cert.Bridge.aggClip200 (F := Ideal) (W (Proc.devRef .tc main_arg2)) (W (Proc.devRef .tc main_arg3)) (W (Proc.devRef .tc main_arg4)) (W (Proc.devRef .tc main_v15)) := by
  dsimp only [hostOps2, hostOps2_1]
  after_results_simp
  rfl

end Cert.KernelIdeal.HostStages

end
-- ==== Proof.HostStage3.lean ====
/-
  The host operations between the second tower's two launches: the sparse aggregation of its first product, clipped at zero (width 800).
  Stated for ANY contents `W` of the buffers before the stretch: the operations are applied in order, each result
  read where it is used, and the composed function is the specification's stage — the same operations, so nothing
  is opened.
-/
import proofs.«158018_j11269994185511_1_alg».proof.Proof.Spec
import proofs.«158018_j11269994185511_1_alg».proof.Proof.Gen.KernelIdeal.Launch
import Idealize.ShloMosaic.Lib.StableHlo.Run

set_option maxRecDepth 16384

noncomputable section

namespace Cert.KernelIdeal.HostStages

open Idealize.ShloMosaic Idealize.ShloMosaic.TcCoe Idealize.SL.Sem Cert.KernelIdeal Cert.KernelIdeal.Gen
open Idealize.ShloMosaic.StableHlo

variable (W : Valuation τ sig (Elt Ideal))

/-- The second tower's first aggregation and clipping. -/
theorem stage3 :
    StableHlo.after (hostOps3_1 (F := Ideal)) (StableHlo.after (hostOps3 (F := Ideal)) W) (Proc.devRef .tc main_v44)
      = Cert.Bridge.aggClip800 (F := Ideal) (W (Proc.devRef .tc main_arg2)) (W (Proc.devRef .tc main_arg3)) (W (Proc.devRef .tc main_arg4)) (W (Proc.devRef .tc main_v30)) := by
  dsimp only [hostOps3, hostOps3_1]
  after_results_simp
  rfl

end Cert.KernelIdeal.HostStages

end
-- ==== Proof.HostStage4.lean ====
/-
  The host operations before the last launch: the second tower's last aggregation, the half-and-half average of the two towers, its rows gathered at the two entries of each training pair and joined; and the bias vector laid out as a row.
  Stated for ANY contents `W` of the buffers before the stretch: the operations are applied in order, each result
  read where it is used, and the composed function is the specification's stage — the same operations, so nothing
  is opened.
-/
import proofs.«158018_j11269994185511_1_alg».proof.Proof.Spec
import proofs.«158018_j11269994185511_1_alg».proof.Proof.Gen.KernelIdeal.Launch
import Idealize.ShloMosaic.Lib.StableHlo.Run

set_option maxRecDepth 16384

noncomputable section

namespace Cert.KernelIdeal.HostStages

open Idealize.ShloMosaic Idealize.ShloMosaic.TcCoe Idealize.SL.Sem Cert.KernelIdeal Cert.KernelIdeal.Gen
open Idealize.ShloMosaic.StableHlo

variable (W : Valuation τ sig (Elt Ideal))

/-- The joined pair features from the first tower's embedding (computed two launches earlier and still in its
    buffer), the second tower's last product, and the training pairs. -/
theorem stage4_pairs :
    StableHlo.after (hostOps4_2 (F := Ideal)) (StableHlo.after (hostOps4_1 (F := Ideal)) (StableHlo.after (hostOps4 (F := Ideal)) W)) (Proc.devRef .tc main_v83)
      = Cert.Bridge.pairFeatures (F := Ideal) (W (Proc.devRef .tc main_v29))
          (Cert.Bridge.aggClip200 (F := Ideal) (W (Proc.devRef .tc main_arg2)) (W (Proc.devRef .tc main_arg3)) (W (Proc.devRef .tc main_arg4)) (W (Proc.devRef .tc main_v45)))
          (W (Proc.devRef .tc main_arg5)) := by
  dsimp only [hostOps4, hostOps4_1, hostOps4_2]
  after_results_simp
  rfl

end Cert.KernelIdeal.HostStages

end
-- ==== Proof.BiasRow.lean ====
/-
  The bias vector as a 1 × 64 row.

  The kernel's host program reshapes the 64-entry bias vector to 1 × 64 before the last launch; the reference
  broadcasts it into 1 × 64 along its second axis.  Both put entry `j` of the vector at position `(0, j)`: a
  reshape that only adds a leading axis of extent one keeps the row-major position, and the broadcast reads the
  vector at the coordinate of the axis it was mapped to.
-/
import proofs.«158018_j11269994185511_1_alg».proof.Proof.Spec
import proofs.«158018_j11269994185511_1_alg».proof.Proof.Gen.KernelIdeal.Launch
import Idealize.ShloMosaic.Lib.StableHlo.Run
import Idealize.ShloMosaic.Lib.Pipeline.Value

set_option maxRecDepth 16384

noncomputable section

namespace Cert.KernelIdeal.HostStages

open Idealize.ShloMosaic Idealize.ShloMosaic.TcCoe Idealize.SL.Sem Cert.KernelIdeal Cert.KernelIdeal.Gen
open Idealize.ShloMosaic.StableHlo

/-- The reshape [64] → [1, 64] and the broadcast of [64] into [1, 64] along axis 1 are the same array. -/
theorem bias_row (b : (⟨S64, .f32⟩ : BufTy).Contents (Elt Ideal)) (h : S64.ShapeCasts S1x64) :
    shapeCast S1x64 b h = Cert.Bridge.biasRow (F := Ideal) b := by
  funext j
  unfold Cert.Bridge.biasRow
  rw [shapeCast_addUnit_apply ![64] b h j]
  refine (broadcastInDim_apply _ _ b j (fun a => j a.succ) (fun a => ?_)).symm
  match a with
  | ⟨0, _⟩ => show (j 1).val = if (64 : Nat) = 1 then 0 else (j 1).val; rw [if_neg (by decide)]

variable (W : Valuation τ sig (Elt Ideal))

/-- What the host operations before the last launch leave in the bias row's buffer, from ANY contents `W` of the
    buffers before them: the bias vector as a row. -/
theorem stage4_bias :
    StableHlo.after (hostOps4_2 (F := Ideal)) (StableHlo.after (hostOps4_1 (F := Ideal)) (StableHlo.after (hostOps4 (F := Ideal)) W)) (Proc.devRef .tc main_v84)
      = Cert.Bridge.biasRow (F := Ideal) (W (Proc.devRef .tc main_arg11)) := by
  dsimp only [hostOps4, hostOps4_1, hostOps4_2]
  after_results_simp
  exact bias_row _ _

end Cert.KernelIdeal.HostStages

end
-- ==== Proof.Fold.lean ====
/-
  What the idealized kernel's last boundary holds at the result buffer, as a function of the launch memory.

  The buffers' contents at the segment boundaries are a fold from the launch memory: a stretch of host operations
  applies them in order, a launch replaces its output array by what its grid points wrote back.  Two facts carry
  the fold to the end.

  * No operation and no launch writes an argument, so at EVERY boundary the thirteen argument arrays are what they
    were at launch (`ArgsKept`): a host stretch writes only its own results, a launch only its output array, and an
    input array of a launch is read back as it was entered.
  * Each computed array is one of the specification's stages of arrays already known: a launch's output is the
    whole matrix product of its two input arrays (or the edge predictor of its four), a host stretch's result is
    its operations' composed function — for the aggregate-and-clip stretch and the average-gather-join stretch the
    very operations the reference applies, so they are named and never opened.

  Composing these from the launch to the last boundary, the result buffer holds the specification's `netOut` of
  the argument arrays.
-/
import proofs.«158018_j11269994185511_1_alg».proof.Proof.Spec
import proofs.«158018_j11269994185511_1_alg».proof.Proof.Gen.KernelIdeal.Frame
import proofs.«158018_j11269994185511_1_alg».proof.Proof.TowerProducts
import proofs.«158018_j11269994185511_1_alg».proof.Proof.EdgeMlpBlocks
import proofs.«158018_j11269994185511_1_alg».proof.Proof.HostStage1
import proofs.«158018_j11269994185511_1_alg».proof.Proof.HostStage2
import proofs.«158018_j11269994185511_1_alg».proof.Proof.HostStage3
import proofs.«158018_j11269994185511_1_alg».proof.Proof.HostStage4
import proofs.«158018_j11269994185511_1_alg».proof.Proof.BiasRow
import Idealize.ShloMosaic.Lib.StableHlo.Run
import Idealize.ShloMosaic.Lib.Pipeline.Value

set_option maxRecDepth 16384

noncomputable section

namespace Cert.KernelIdeal.Fold

open Idealize.ShloMosaic Idealize.ShloMosaic.TcCoe Idealize.SL.Sem Cert.KernelIdeal Cert.KernelIdeal.Gen
open Idealize.ShloMosaic.StableHlo
open Idealize.ShloMosaic.Pipeline (Dat)

variable (m : (ℓ : Loc nD τ sig) → Buf (Elt Ideal) ℓ) (ρ : Dev nD → PrngReg) (c : Dev nD)

/-! ## The arguments are never written -/

/-- A valuation of core `c`'s buffers agrees with the launch memory on the thirteen arguments. -/
structure ArgsKept (W : Valuation τ sig (Elt Ideal)) : Prop where
  a0 : W (Proc.devRef .tc main_arg0) = m ((c : Thread nD τ).loc main_arg0)
  a1 : W (Proc.devRef .tc main_arg1) = m ((c : Thread nD τ).loc main_arg1)
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)
  a11 : W (Proc.devRef .tc main_arg11) = m ((c : Thread nD τ).loc main_arg11)
  a12 : W (Proc.devRef .tc main_arg12) = m ((c : Thread nD τ).loc main_arg12)

/-- A buffer that none of a stretch's operations writes keeps its contents through the stretch: each operation
    writes one buffer, and it is another one. -/
macro "host_keeps " ops:ident : tactic => `(tactic|
  (refine StableHlo.after_of_forall_not_mem _ _ (List.forall_iff_forall_mem.mp ?_)
   simp only [$ops:ident, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-- The arguments pass through a stretch of host operations: none of them is a result of the stretch. -/
macro "args_through " ops:ident h:ident : term => `(
  (⟨Eq.trans (by host_keeps $ops) ($h).a0, Eq.trans (by host_keeps $ops) ($h).a1, Eq.trans (by host_keeps $ops) ($h).a2, Eq.trans (by host_keeps $ops) ($h).a3, Eq.trans (by host_keeps $ops) ($h).a4, Eq.trans (by host_keeps $ops) ($h).a5, Eq.trans (by host_keeps $ops) ($h).a6, Eq.trans (by host_keeps $ops) ($h).a7, Eq.trans (by host_keeps $ops) ($h).a8, Eq.trans (by host_keeps $ops) ($h).a9, Eq.trans (by host_keeps $ops) ($h).a10, Eq.trans (by host_keeps $ops) ($h).a11, Eq.trans (by host_keeps $ops) ($h).a12⟩))

variable {m c} in
theorem ArgsKept.launch : ArgsKept m c (W0 m ρ c) := ⟨rfl, rfl, rfl, rfl, rfl, rfl, rfl, rfl, rfl, rfl, rfl, rfl, rfl⟩

/-- Launch 0 writes only its output array; its input arrays are read back as entered, every other buffer is
    untouched. -/
theorem ArgsKept.region0 (h : ArgsKept m c (W0 m ρ c)) : ArgsKept m c (W1 m ρ c) where
  a0 := ((W1_arr m ρ c 0).trans (((dat0 (V0 m ρ) c).arrAt_in 0 rfl _).trans (A_eq0 (V0 m ρ) c 0))).trans h.a0
  a1 := (W1_of_ne m ρ c main_arg1 (by decide)).trans h.a1
  a2 := (W1_of_ne m ρ c main_arg2 (by decide)).trans h.a2
  a3 := (W1_of_ne m ρ c main_arg3 (by decide)).trans h.a3
  a4 := (W1_of_ne m ρ c main_arg4 (by decide)).trans h.a4
  a5 := (W1_of_ne m ρ c main_arg5 (by decide)).trans h.a5
  a6 := ((W1_arr m ρ c 1).trans (((dat0 (V0 m ρ) c).arrAt_in 1 rfl _).trans (A_eq0 (V0 m ρ) c 1))).trans h.a6
  a7 := (W1_of_ne m ρ c main_arg7 (by decide)).trans h.a7
  a8 := (W1_of_ne m ρ c main_arg8 (by decide)).trans h.a8
  a9 := (W1_of_ne m ρ c main_arg9 (by decide)).trans h.a9
  a10 := (W1_of_ne m ρ c main_arg10 (by decide)).trans h.a10
  a11 := (W1_of_ne m ρ c main_arg11 (by decide)).trans h.a11
  a12 := (W1_of_ne m ρ c main_arg12 (by decide)).trans h.a12

/-- Launch 1 writes only its output array; its input arrays are read back as entered, every other buffer is
    untouched. -/
theorem ArgsKept.region1 (h : ArgsKept m c (W3 m ρ c)) : ArgsKept m c (W4 m ρ c) where
  a0 := (W4_of_ne m ρ c main_arg0 (by decide)).trans h.a0
  a1 := (W4_of_ne m ρ c main_arg1 (by decide)).trans h.a1
  a2 := (W4_of_ne m ρ c main_arg2 (by decide)).trans h.a2
  a3 := (W4_of_ne m ρ c main_arg3 (by decide)).trans h.a3
  a4 := (W4_of_ne m ρ c main_arg4 (by decide)).trans h.a4
  a5 := (W4_of_ne m ρ c main_arg5 (by decide)).trans h.a5
  a6 := (W4_of_ne m ρ c main_arg6 (by decide)).trans h.a6
  a7 := ((W4_arr m ρ c 1).trans (((dat1 (V3 m ρ) c).arrAt_in 1 rfl _).trans (A_eq1 (V3 m ρ) c 1))).trans h.a7
  a8 := (W4_of_ne m ρ c main_arg8 (by decide)).trans h.a8
  a9 := (W4_of_ne m ρ c main_arg9 (by decide)).trans h.a9
  a10 := (W4_of_ne m ρ c main_arg10 (by decide)).trans h.a10
  a11 := (W4_of_ne m ρ c main_arg11 (by decide)).trans h.a11
  a12 := (W4_of_ne m ρ c main_arg12 (by decide)).trans h.a12

/-- Launch 2 writes only its output array; its input arrays are read back as entered, every other buffer is
    untouched. -/
theorem ArgsKept.region2 (h : ArgsKept m c (W6 m ρ c)) : ArgsKept m c (W7 m ρ c) where
  a0 := (W7_of_ne m ρ c main_arg0 (by decide)).trans h.a0
  a1 := ((W7_arr m ρ c 0).trans (((dat2 (V6 m ρ) c).arrAt_in 0 rfl _).trans (A_eq2 (V6 m ρ) c 0))).trans h.a1
  a2 := (W7_of_ne m ρ c main_arg2 (by decide)).trans h.a2
  a3 := (W7_of_ne m ρ c main_arg3 (by decide)).trans h.a3
  a4 := (W7_of_ne m ρ c main_arg4 (by decide)).trans h.a4
  a5 := (W7_of_ne m ρ c main_arg5 (by decide)).trans h.a5
  a6 := (W7_of_ne m ρ c main_arg6 (by decide)).trans h.a6
  a7 := (W7_of_ne m ρ c main_arg7 (by decide)).trans h.a7
  a8 := ((W7_arr m ρ c 1).trans (((dat2 (V6 m ρ) c).arrAt_in 1 rfl _).trans (A_eq2 (V6 m ρ) c 1))).trans h.a8
  a9 := (W7_of_ne m ρ c main_arg9 (by decide)).trans h.a9
  a10 := (W7_of_ne m ρ c main_arg10 (by decide)).trans h.a10
  a11 := (W7_of_ne m ρ c main_arg11 (by decide)).trans h.a11
  a12 := (W7_of_ne m ρ c main_arg12 (by decide)).trans h.a12

/-- Launch 3 writes only its output array; its input arrays are read back as entered, every other buffer is
    untouched. -/
theorem ArgsKept.region3 (h : ArgsKept m c (W9 m ρ c)) : ArgsKept m c (W10 m ρ c) where
  a0 := (W10_of_ne m ρ c main_arg0 (by decide)).trans h.a0
  a1 := (W10_of_ne m ρ c main_arg1 (by decide)).trans h.a1
  a2 := (W10_of_ne m ρ c main_arg2 (by decide)).trans h.a2
  a3 := (W10_of_ne m ρ c main_arg3 (by decide)).trans h.a3
  a4 := (W10_of_ne m ρ c main_arg4 (by decide)).trans h.a4
  a5 := (W10_of_ne m ρ c main_arg5 (by decide)).trans h.a5
  a6 := (W10_of_ne m ρ c main_arg6 (by decide)).trans h.a6
  a7 := (W10_of_ne m ρ c main_arg7 (by decide)).trans h.a7
  a8 := (W10_of_ne m ρ c main_arg8 (by decide)).trans h.a8
  a9 := ((W10_arr m ρ c 1).trans (((dat3 (V9 m ρ) c).arrAt_in 1 rfl _).trans (A_eq3 (V9 m ρ) c 1))).trans h.a9
  a10 := (W10_of_ne m ρ c main_arg10 (by decide)).trans h.a10
  a11 := (W10_of_ne m ρ c main_arg11 (by decide)).trans h.a11
  a12 := (W10_of_ne m ρ c main_arg12 (by decide)).trans h.a12

/-- Launch 4 writes only its output array; its input arrays are read back as entered, every other buffer is
    untouched. -/
theorem ArgsKept.region4 (h : ArgsKept m c (W13 m ρ c)) : ArgsKept m c (W14 m ρ c) where
  a0 := (W14_of_ne m ρ c main_arg0 (by decide)).trans h.a0
  a1 := (W14_of_ne m ρ c main_arg1 (by decide)).trans h.a1
  a2 := (W14_of_ne m ρ c main_arg2 (by decide)).trans h.a2
  a3 := (W14_of_ne m ρ c main_arg3 (by decide)).trans h.a3
  a4 := (W14_of_ne m ρ c main_arg4 (by decide)).trans h.a4
  a5 := (W14_of_ne m ρ c main_arg5 (by decide)).trans h.a5
  a6 := (W14_of_ne m ρ c main_arg6 (by decide)).trans h.a6
  a7 := (W14_of_ne m ρ c main_arg7 (by decide)).trans h.a7
  a8 := (W14_of_ne m ρ c main_arg8 (by decide)).trans h.a8
  a9 := (W14_of_ne m ρ c main_arg9 (by decide)).trans h.a9
  a10 := ((W14_arr m ρ c 1).trans (((dat4 (V13 m ρ) c).arrAt_in 1 rfl _).trans (A_eq4 (V13 m ρ) c 1))).trans h.a10
  a11 := (W14_of_ne m ρ c main_arg11 (by decide)).trans h.a11
  a12 := ((W14_arr m ρ c 3).trans (((dat4 (V13 m ρ) c).arrAt_in 3 rfl _).trans (A_eq4 (V13 m ρ) c 3))).trans h.a12

/-! ## The arguments at every boundary -/

theorem args1 : ArgsKept m c (W1 m ρ c) := (ArgsKept.launch ρ).region0 m ρ c
theorem args2 : ArgsKept m c (W2 m ρ c) := have h := args1 m ρ c; args_through hostOps1 h
theorem args3 : ArgsKept m c (W3 m ρ c) := have h := args2 m ρ c; args_through hostOps1_1 h
theorem args4 : ArgsKept m c (W4 m ρ c) := (args3 m ρ c).region1 m ρ c
theorem args5 : ArgsKept m c (W5 m ρ c) := have h := args4 m ρ c; args_through hostOps2 h
theorem args6 : ArgsKept m c (W6 m ρ c) := have h := args5 m ρ c; args_through hostOps2_1 h
theorem args7 : ArgsKept m c (W7 m ρ c) := (args6 m ρ c).region2 m ρ c
theorem args8 : ArgsKept m c (W8 m ρ c) := have h := args7 m ρ c; args_through hostOps3 h
theorem args9 : ArgsKept m c (W9 m ρ c) := have h := args8 m ρ c; args_through hostOps3_1 h
theorem args10 : ArgsKept m c (W10 m ρ c) := (args9 m ρ c).region3 m ρ c
theorem args11 : ArgsKept m c (W11 m ρ c) := have h := args10 m ρ c; args_through hostOps4 h
theorem args12 : ArgsKept m c (W12 m ρ c) := have h := args11 m ρ c; args_through hostOps4_1 h
theorem args13 : ArgsKept m c (W13 m ρ c) := have h := args12 m ρ c; args_through hostOps4_2 h

/-! ## The computed arrays, boundary by boundary -/

/-- After launch 0 its output array holds the first tower's first product. -/
theorem W1_prod : W1 m ρ c (Proc.devRef .tc main_v0) = Cert.Bridge.proj1 (F := Ideal) (m ((c : Thread nD τ).loc main_arg0)) (m ((c : Thread nD τ).loc main_arg6)) :=
  (W1_arr m ρ c 2).trans (TowerProducts.final0 (V0 m ρ) c)

/-- Before launch 1: that product aggregated and clipped. -/
theorem W3_hidden : W3 m ρ c (Proc.devRef .tc main_v14) = Cert.Bridge.aggClip800 (F := Ideal) (m ((c : Thread nD τ).loc main_arg2)) (m ((c : Thread nD τ).loc main_arg3)) (m ((c : Thread nD τ).loc main_arg4)) (Cert.Bridge.proj1 (F := Ideal) (m ((c : Thread nD τ).loc main_arg0)) (m ((c : Thread nD τ).loc main_arg6))) := by
  show StableHlo.after hostOps1_1 (StableHlo.after hostOps1 (W1 m ρ c)) _ = _
  rw [HostStages.stage1, (args1 m ρ c).a2, (args1 m ρ c).a3, (args1 m ρ c).a4, W1_prod]

/-- After launch 1 its output array holds the first tower's second product. -/
theorem W4_prod : W4 m ρ c (Proc.devRef .tc main_v15) = Cert.Bridge.proj2 (F := Ideal) (Cert.Bridge.aggClip800 (F := Ideal) (m ((c : Thread nD τ).loc main_arg2)) (m ((c : Thread nD τ).loc main_arg3)) (m ((c : Thread nD τ).loc main_arg4)) (Cert.Bridge.proj1 (F := Ideal) (m ((c : Thread nD τ).loc main_arg0)) (m ((c : Thread nD τ).loc main_arg6)))) (m ((c : Thread nD τ).loc main_arg7)) := by
  refine (W4_arr m ρ c 2).trans ((TowerProducts.final1 (V3 m ρ) c).trans ?_)
  show Cert.Bridge.proj2 (F := Ideal) (W3 m ρ c (Proc.devRef .tc main_v14)) (W3 m ρ c (Proc.devRef .tc main_arg7)) = _
  rw [W3_hidden, (args3 m ρ c).a7]

/-- Before launch 2: the first tower's embedding. -/
theorem W6_tower : W6 m ρ c (Proc.devRef .tc main_v29) = Cert.Bridge.tower (F := Ideal) (m ((c : Thread nD τ).loc main_arg0)) (m ((c : Thread nD τ).loc main_arg6)) (m ((c : Thread nD τ).loc main_arg7)) (m ((c : Thread nD τ).loc main_arg2)) (m ((c : Thread nD τ).loc main_arg3)) (m ((c : Thread nD τ).loc main_arg4)) := by
  show StableHlo.after hostOps2_1 (StableHlo.after hostOps2 (W4 m ρ c)) _ = _
  rw [HostStages.stage2, (args4 m ρ c).a2, (args4 m ρ c).a3, (args4 m ρ c).a4, W4_prod]
  rfl

/-- After launch 2 its output array holds the second tower's first product. -/
theorem W7_prod : W7 m ρ c (Proc.devRef .tc main_v30) = Cert.Bridge.proj1 (F := Ideal) (m ((c : Thread nD τ).loc main_arg1)) (m ((c : Thread nD τ).loc main_arg8)) := by
  refine (W7_arr m ρ c 2).trans ((TowerProducts.final2 (V6 m ρ) c).trans ?_)
  show Cert.Bridge.proj1 (F := Ideal) (W6 m ρ c (Proc.devRef .tc main_arg1)) (W6 m ρ c (Proc.devRef .tc main_arg8)) = _
  rw [(args6 m ρ c).a1, (args6 m ρ c).a8]

/-- Before launch 3: that product aggregated and clipped. -/
theorem W9_hidden : W9 m ρ c (Proc.devRef .tc main_v44) = Cert.Bridge.aggClip800 (F := Ideal) (m ((c : Thread nD τ).loc main_arg2)) (m ((c : Thread nD τ).loc main_arg3)) (m ((c : Thread nD τ).loc main_arg4)) (Cert.Bridge.proj1 (F := Ideal) (m ((c : Thread nD τ).loc main_arg1)) (m ((c : Thread nD τ).loc main_arg8))) := by
  show StableHlo.after hostOps3_1 (StableHlo.after hostOps3 (W7 m ρ c)) _ = _
  rw [HostStages.stage3, (args7 m ρ c).a2, (args7 m ρ c).a3, (args7 m ρ c).a4, W7_prod]

/-- After launch 3 its output array holds the second tower's second product. -/
theorem W10_prod : W10 m ρ c (Proc.devRef .tc main_v45) = Cert.Bridge.proj2 (F := Ideal) (Cert.Bridge.aggClip800 (F := Ideal) (m ((c : Thread nD τ).loc main_arg2)) (m ((c : Thread nD τ).loc main_arg3)) (m ((c : Thread nD τ).loc main_arg4)) (Cert.Bridge.proj1 (F := Ideal) (m ((c : Thread nD τ).loc main_arg1)) (m ((c : Thread nD τ).loc main_arg8)))) (m ((c : Thread nD τ).loc main_arg9)) := by
  refine (W10_arr m ρ c 2).trans ((TowerProducts.final3 (V9 m ρ) c).trans ?_)
  show Cert.Bridge.proj2 (F := Ideal) (W9 m ρ c (Proc.devRef .tc main_v44)) (W9 m ρ c (Proc.devRef .tc main_arg9)) = _
  rw [W9_hidden, (args9 m ρ c).a9]

/-- The first tower's embedding is still in its buffer after launch 3: neither the second tower's launches nor
    the host operations between them write it. -/
theorem W10_tower : W10 m ρ c (Proc.devRef .tc main_v29) = Cert.Bridge.tower (F := Ideal) (m ((c : Thread nD τ).loc main_arg0)) (m ((c : Thread nD τ).loc main_arg6)) (m ((c : Thread nD τ).loc main_arg7)) (m ((c : Thread nD τ).loc main_arg2)) (m ((c : Thread nD τ).loc main_arg3)) (m ((c : Thread nD τ).loc main_arg4)) :=
  (W10_of_ne m ρ c main_v29 (by decide)).trans
    ((by host_keeps hostOps3_1 : W9 m ρ c (Proc.devRef .tc main_v29) = W8 m ρ c (Proc.devRef .tc main_v29)).trans
      ((by host_keeps hostOps3 : W8 m ρ c (Proc.devRef .tc main_v29) = W7 m ρ c (Proc.devRef .tc main_v29)).trans
        ((W7_of_ne m ρ c main_v29 (by decide)).trans (W6_tower m ρ c))))

/-- Before the last launch: the joined pair features of the two towers. -/
theorem W13_pairs : W13 m ρ c (Proc.devRef .tc main_v83) = Cert.Bridge.pairFeatures (F := Ideal) (Cert.Bridge.tower (F := Ideal) (m ((c : Thread nD τ).loc main_arg0)) (m ((c : Thread nD τ).loc main_arg6)) (m ((c : Thread nD τ).loc main_arg7)) (m ((c : Thread nD τ).loc main_arg2)) (m ((c : Thread nD τ).loc main_arg3)) (m ((c : Thread nD τ).loc main_arg4))) (Cert.Bridge.tower (F := Ideal) (m ((c : Thread nD τ).loc main_arg1)) (m ((c : Thread nD τ).loc main_arg8)) (m ((c : Thread nD τ).loc main_arg9)) (m ((c : Thread nD τ).loc main_arg2)) (m ((c : Thread nD τ).loc main_arg3)) (m ((c : Thread nD τ).loc main_arg4))) (m ((c : Thread nD τ).loc main_arg5)) := by
  show StableHlo.after hostOps4_2 (StableHlo.after hostOps4_1 (StableHlo.after hostOps4 (W10 m ρ c))) _ = _
  rw [HostStages.stage4_pairs, W10_tower, (args10 m ρ c).a2, (args10 m ρ c).a3, (args10 m ρ c).a4, W10_prod, (args10 m ρ c).a5]
  rfl

/-- Before the last launch: the bias vector as a row. -/
theorem W13_bias : W13 m ρ c (Proc.devRef .tc main_v84) = Cert.Bridge.biasRow (F := Ideal) (m ((c : Thread nD τ).loc main_arg11)) := by
  show StableHlo.after hostOps4_2 (StableHlo.after hostOps4_1 (StableHlo.after hostOps4 (W10 m ρ c))) _ = _
  rw [HostStages.stage4_bias, (args10 m ρ c).a11]

/-- THE RESULT: after the last launch the result buffer holds the network's output on the argument arrays. -/
theorem W14_out : W14 m ρ c (Proc.devRef .tc main_v85)
    = Cert.Bridge.netOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W14_arr m ρ c 4).trans ((EdgeMlpBlocks.final4 (V13 m ρ) c).trans ?_)
  show Cert.Bridge.edgeMlp (F := Ideal) (W13 m ρ c (Proc.devRef .tc main_v83)) (W13 m ρ c (Proc.devRef .tc main_arg10)) (W13 m ρ c (Proc.devRef .tc main_v84)) (W13 m ρ c (Proc.devRef .tc main_arg12)) = _
  rw [W13_pairs, (args13 m ρ c).a10, W13_bias, (args13 m ρ c).a12]
  rfl

end Cert.KernelIdeal.Fold

end
-- ==== Proof.RefStages.lean ====
/-
  The reference's result is the specification's network output.

  The reference's run ends with its result buffer at the composed term of its host operations applied to the
  argument arrays.  That term is, operation for operation, the specification's `netOut`: the two towers (product,
  aggregate and clip, twice), the joined pair features of their average, the bias laid out as a row, and the
  two-layer predictor.  Unfolding the names on both sides leaves the same expression.
-/
import proofs.«158018_j11269994185511_1_alg».proof.Proof.Spec
import proofs.«158018_j11269994185511_1_alg».proof.Proof.Gen.ReferenceIdeal.Run

set_option maxRecDepth 16384

noncomputable section

namespace Cert.ReferenceIdeal.RefValue

open Idealize.ShloMosaic Idealize.ShloMosaic.TcCoe Idealize.SL.Sem Cert.ReferenceIdeal Cert.ReferenceIdeal.Gen

/-- The reference run's result term is `netOut` of the thirteen argument arrays. -/
theorem result_eq (m : (ℓ : Loc nD τ sig) → Buf (Elt Ideal) ℓ) (c : Dev nD) :
    Cert.ReferenceIdeal.Value.res_main_v90 (F := Ideal) m c
      = Cert.Bridge.netOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold Cert.ReferenceIdeal.Value.res_main_v90
  rfl

end Cert.ReferenceIdeal.RefValue

end
-- ==== Proof.lean ====
/-
  A two-tower graph-convolution network with an edge predictor: the kernel against its plain reference.

  The kernel runs the dense products in five launches — for each tower `feat · W₁` and `h · W₂`, 2000 node rows
  per grid point, and the two-layer edge predictor `max (max (X · M₁ + b) 0 · M₂) 0`, 4096 training pairs per grid
  point — and leaves the sparse aggregation, the clipping, the average of the towers, the gathers and the joining
  to the same host operations the reference uses.  Over the extended reals a change of float format is the
  identity and a product into a zero accumulator is the sum `∑ k, A (r, k) * B (k, j)`, which is what the reference's
  whole-array product is; a block of rows of that product is the product of the block of rows.  So each launch
  leaves in its output array the whole-array function the reference applies at that place, and since every other
  step is the same operation of the same arrays, both programs end with `netOut` of the thirteen arguments
  (Proof/Spec.lean).  No property of the data is used: the two sides are the same expression, not merely equal
  values, so the precondition is never opened.

  The parts: Proof/Spec.lean names the stages; Proof/TowerProducts.lean and Proof/EdgeMlpBlocks.lean read each
  launch's output array; Proof/HostStage1–4.lean and Proof/BiasRow.lean read the host operations between the
  launches; Proof/Fold.lean composes them from the launch memory to the result buffer; Proof/KernelRun.lean is the
  kernel's run with that buffer named; Proof/RefStages.lean is the reference's run.  The ideal pass rewrote nothing,
  so the kernel's idealization is its own text read over the extended reals.
-/
import proofs.«158018_j11269994185511_1_alg».proof.Defs
import proofs.«158018_j11269994185511_1_alg».proof.Proof.Gen.Kernel
import proofs.«158018_j11269994185511_1_alg».proof.Proof.Gen.Kernel.Frame
import proofs.«158018_j11269994185511_1_alg».proof.Proof.Gen.KernelIdeal
import proofs.«158018_j11269994185511_1_alg».proof.Proof.Gen.KernelIdeal.Frame
import proofs.«158018_j11269994185511_1_alg».proof.Proof.Gen.ReferenceIdeal
import proofs.«158018_j11269994185511_1_alg».proof.Proof.Gen.ReferenceIdeal.Run
import proofs.«158018_j11269994185511_1_alg».proof.Proof.Gen.Pre_finite_inputs
import proofs.«158018_j11269994185511_1_alg».proof.Proof.Spec
import proofs.«158018_j11269994185511_1_alg».proof.Proof.KernelRun
import proofs.«158018_j11269994185511_1_alg».proof.Proof.Fold
import proofs.«158018_j11269994185511_1_alg».proof.Proof.RefStages
import Idealize.ShloMosaic.Adequacy
import Idealize.ShloMosaic.Init

set_option maxRecDepth 16384

noncomputable section

namespace Cert.Proof

open Idealize.ShloMosaic Idealize.SL.Sem

/-- Both idealized programs, run from memories that agree on the arguments, end with the network's output on those
    arguments in their result buffers: the kernel by the fold through its segments, the reference by its run. -/
theorem algebraic : Cert.algebraic_KernelIdeal_ReferenceIdeal := by
  intro m ρ m' ρ' _ hagree
  refine ⟨fun c => Cert.Bridge.netOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Fold.W14_out m ρ c), (h c).2⟩)
      (Cert.KernelIdeal.ValueRun.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.RefValue.result_eq m' c, e0, e1, e2, e3, e4, e5, e6, e7, e8, e9, e10, e11, e12]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
